-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S10000x128 : Shape := ⟨2, ![10000, 128]⟩
abbrev S10000x1 : Shape := ⟨2, ![10000, 1]⟩
abbrev S10000x64 : Shape := ⟨2, ![10000, 64]⟩
abbrev S1600000x64 : Shape := ⟨2, ![1600000, 64]⟩
abbrev S1x64 : Shape := ⟨2, ![1, 64]⟩
abbrev S4000x64 : Shape := ⟨2, ![4000, 64]⟩
abbrev S4000x1 : Shape := ⟨2, ![4000, 1]⟩
abbrev S1x1 : Shape := ⟨2, ![1, 1]⟩
abbrev S4000 : Shape := ⟨1, ![4000]⟩

abbrev nBuf : Space → Nat
  | .hbm => 57
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x64, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S1x64, .f32⟩
  | .hbm, ⟨53, _⟩ => ⟨S1x64, .f32⟩
  | .hbm, ⟨54, _⟩ => ⟨S1x1, .f32⟩
  | .hbm, ⟨55, _⟩ => ⟨S100000x1, .f32⟩
  | .hbm, ⟨56, _⟩ => ⟨S100000, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x1, .f32⟩
  | .local _ .vmem, ⟨4, _⟩ => ⟨S10000x1, .f32⟩
  | .local _ .vmem, ⟨5, _⟩ => ⟨S10000x64, .f32⟩
  | .local _ .vmem, ⟨6, _⟩ => ⟨S10000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x1, .f32⟩
  | .local _ .vmem, ⟨12, _⟩ => ⟨S4000x1, .f32⟩
  | .local _ .vmem, ⟨13, _⟩ => ⟨S1x64, .f32⟩
  | .local _ .vmem, ⟨14, _⟩ => ⟨S64x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x1, .f32⟩
  | .local _ .vmem, ⟨22, _⟩ => ⟨S4000x1, .f32⟩
  | .local _ .vmem, ⟨23, _⟩ => ⟨S1x64, .f32⟩
  | .local _ .vmem, ⟨24, _⟩ => ⟨S1x64, .f32⟩
  | .local _ .vmem, ⟨25, _⟩ => ⟨S1x1, .f32⟩
  | .local _ .vmem, ⟨26, _⟩ => ⟨S4000x1, .f32⟩
  | .local _ .vmem, ⟨27, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  shapeCasts_S64_S1x64 : S64.ShapeCasts S1x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S4000x1_S4000x64 : S4000x1.Broadcasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  shapeCasts_S64x1_S1x64 : S64x1.ShapeCasts S1x64
  shapeCasts_S1_S1x1 : S1.ShapeCasts S1x1
  reduces_S4000x64_S4000 : S4000x64.Reduces [1] S4000
  shapeCasts_S4000_S4000x1 : S4000.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  shapeCasts_S100000x1_S100000 : S100000x1.ShapeCasts S100000
  scatter_S100000_S1600000x1_S1600000_n_0_0_1_wf : ScatterDims.WF S100000 S1600000x1 S1600000 [] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .f32 = 32 ∨ (Rect.block (s := S100000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x1.size a ≤ S100000x1.size a
  hwx2_6 : ∀ i : grid2.Coords, EltTy.bits .f32 = 32 ∨ (Rect.block (s := S100000x1) S4000x1.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v38) S4000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S1x1 : Shape := ⟨2, ![1, 1]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x1, .f32⟩
  | 7 => ⟨S1, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x64, .f32⟩
  | 51 => ⟨S1600000x1, .f32⟩
  | 52 => ⟨S1600000x64, .f32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S_, .f32⟩
  | 59 => ⟨S100000, .f32⟩
  | 60 => ⟨S100000, .f32⟩
  | 61 => ⟨S100000x1, .f32⟩
  | 62 => ⟨S100000x64, .f32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x64, .f32⟩
  | 72 => ⟨S_, .f32⟩
  | 73 => ⟨S1600000, .f32⟩
  | 74 => ⟨S_, .f32⟩
  | 75 => ⟨S100000, .f32⟩
  | 76 => ⟨S1600000x1, .i32⟩
  | 77 => ⟨S100000, .f32⟩
  | 78 => ⟨S_, .f32⟩
  | 79 => ⟨S100000, .f32⟩
  | 80 => ⟨S100000, .f32⟩
  | 81 => ⟨S100000, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000, .f32⟩
  | 100 => ⟨S1600000, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x64, .f32⟩
  | 110 => ⟨S1600000x1, .f32⟩
  | 111 => ⟨S1600000x64, .f32⟩
  | 112 => ⟨S1600000x64, .f32⟩
  | 113 => ⟨S_, .f32⟩
  | 114 => ⟨S100000x64, .f32⟩
  | 115 => ⟨S1600000x1, .i32⟩
  | 116 => ⟨S100000x64, .f32⟩
  | 117 => ⟨S_, .f32⟩
  | 118 => ⟨S100000, .f32⟩
  | 119 => ⟨S100000, .f32⟩
  | 120 => ⟨S100000x1, .f32⟩
  | 121 => ⟨S100000x64, .f32⟩
  | 122 => ⟨S100000x64, .f32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x128, .f32⟩

abbrev hbmTy0_1 (i : Nat) : BufTy := match i % 128 with
  | 0 => ⟨S100000x64, .f32⟩
  | 1 => ⟨S100000x64, .f32⟩
  | 2 => ⟨S100000x1, .f32⟩
  | 3 => ⟨S1x1, .f32⟩
  | 4 => ⟨S100000x1, .f32⟩
  | 5 => ⟨S100000x1, .f32⟩
  | 6 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call0_cst : Ref sig .tc := ⟨.hbm, 68, rfl⟩
abbrev main_call0_v0 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_16 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_18 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_19 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_call1_cst : Ref sig .tc := ⟨.hbm, 127, rfl⟩
abbrev main_call1_v0 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KRun.lean ====
/-
  The kernel program's run with its result named. From any launch memory with zero counters, every weakly fair
  execution of the program on the TensorCores terminates without a fault; at the end the result buffer holds the
  fold of the program's seven segments over the launch memory, read at the result, and the eight argument arrays
  hold what they held at the launch.
-/
import proofs.«139158_j28166395527551_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN WITH ITS RESULT: from any memory `m` with zero counters, every weakly fair execution of the program on
    the TensorCores terminates and nothing faults; in every final state, on every device, the result buffer holds the
    fold of the seven segments over `m` (the buffer contents after the last segment) read at the result, and each of
    the eight argument arrays holds what `m` held there. -/
theorem run_result : θ_run defs (onTc (τ := τ) (main (F := F))) ⟨m, fun _ => 0, ρ⟩ (fun r => ∀ c : Dev nD,
      r.2.mem ((c.tc : Thread nD τ).loc main_v39) = W7 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v39 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.RunValue

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.LibColumn.lean ====
/-
  A column kept from a vector, and a column spread along rows, read at an entry.

  Summing a matrix along its rows while keeping the axis (`keepdims`) leaves an `[a]` vector viewed as an `[a, 1]`
  column; dividing the matrix by it spreads the column back to `[a, b]`. Read at an entry:
  * the `[a]` vector cast to `[a, 1]` has, at `(i, u)`, the vector's entry `i`, whatever the unit coordinate `u`;
  * the `[a, 1]` column broadcast to `[a, b]` has, at `(p, c)`, the column's entry `(p, 0)`.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.KRegion0.lean ====
/-
  The first kernel launch: rows of `x` times `w`, each row `p` scaled by the column entry `dcol (p, 0)`.
  Grid point `t` of 10 handles rows `10000 t … 10000 t + 9999`; the ten row blocks tile the output, so the
  output array ends as one function of the three input arrays, entry by entry.
-/
import proofs.«139158_j28166395527551_2_alg».proof.Proof.Gen.KernelIdeal.Frame
import proofs.«139158_j28166395527551_2_alg».proof.Proof.LibMatmulPlain
import proofs.«139158_j28166395527551_2_alg».proof.Proof.LibColumn
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

/-- Entry `(p, q)` of the launch's result: `(Σ k, x (p, k) * w (k, q)) * dcol (p, 0)`. -/
def G0 (x : S100000x128.Idx → EReal) (w : S128x64.Idx → EReal) (dcol : S100000x1.Idx → EReal) : S100000x64.Idx → EReal :=
  fun i => (∑ k : Fin 128, x (ix2 (i 0) k) * w (ix2 k (i 1))) * dcol (ix2 (i 0) (0 : Fin 1))

theorem hz : (![0, 0] : Fin 2 → Nat) = fun _ => 0 := funext fun a => by fin_cases a <;> rfl

/-- The body's stored value at an entry of the block: the row of the first block times the column of the weights,
    times the row's scale. -/
theorem pay_apply (x0 : Vec Ideal S10000x128 .f32) (x1 : Vec Ideal S128x64 .f32) (x2 : Vec Ideal S10000x1 .f32)
    (p : Fin 10000) (q : Fin 64) :
    k0_pay1 (F := Ideal) x0 x1 x2 (ix2 p q)
      = (∑ k : Fin 128, x0 (ix2 p k) * x1 (ix2 k q)) * x2 (ix2 p (0 : Fin 1)) := by
  unfold k0_pay1
  rw [mulf_apply]
  refine congrArg₂ (· * ·) ?_ ?_
  · exact Cert.Lib.matmul_plain_zero_apply 10000 128 64 none _ _ p q
  · rw [Cert.Lib.broadcastTo_a1_ab_apply, shapeCast_self]

variable (V : (c : Dev nD) → (b : Ref sig .tc) → Buf (Elt Ideal) ((c : Thread nD τ).loc b))

/-- The printed block index maps over the grid: the row-blocked windows sit at block `(t, 0)`, the weights at `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Block `t` of `x` is its rows `10000 t + ·`. -/
theorem iblk_x (c : Dev nD) (t : Fin cfg0.N) (y : S10000x128.Idx) (i : S100000x128.Idx)
    (h0 : (i 0).val = t.val * 10000 + (y 0).val) (h1 : (i 1).val = (y 1).val) :
    (iblk0 V c 0 t : Vec Ideal S10000x128 .f32) y = (V c main_arg0 : S100000x128.Idx → EReal) i := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 10000 + 1 * (y 0).val = (i 0).val; rw [e0, h0]; omega
  | ⟨1, _⟩ => show win0_0.index t 1 * 128 + 1 * (y 1).val = (i 1).val; rw [e1, h1]; omega

/-- Every point's block of the weights is the whole matrix. -/
theorem iblk_w (c : Dev nD) (t : Fin cfg0.N) (y : S128x64.Idx) :
    (iblk0 V c 1 t : Vec Ideal S128x64 .f32) y = (V c main_arg2 : S128x64.Idx → EReal) y := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t 0 * 128 + 1 * (y 0).val = (y 0).val; rw [e0]; omega
  | ⟨1, _⟩ => show win0_1.index t 1 * 64 + 1 * (y 1).val = (y 1).val; rw [e1]; omega

/-- Block `t` of the scale column is its rows `10000 t + ·`. -/
theorem iblk_d (c : Dev nD) (t : Fin cfg0.N) (y : S10000x1.Idx) (i : S100000x1.Idx)
    (h0 : (i 0).val = t.val * 10000 + (y 0).val) (h1 : (i 1).val = (y 1).val) :
    (iblk0 V c 2 t : Vec Ideal S10000x1 .f32) y = (V c main_v11 : S100000x1.Idx → EReal) i := by
  obtain ⟨-, -, -, -, e0, e1, -⟩ := idx_facts t
  unfold iblk0
  rw [View.read_apply]
  show V c main_v11 _ = V c main_v11 _
  congr 1
  funext a
  apply Fin.ext
  match a with
  | ⟨0, _⟩ => show win0_2.index t 0 * 10000 + 1 * (y 0).val = (i 0).val; rw [e0, h0]; omega
  | ⟨1, _⟩ => show win0_2.index t 1 * 1 + 1 * (y 1).val = (i 1).val; rw [e1, h1]; omega

/-- The stored block at `(p, q)` is the whole-array function at row `10000 t + p`. -/
theorem block_entry (c : Dev nD) (t : Fin cfg0.N) (p : Fin 10000) (q : Fin 64) (p' : Fin 100000)
    (hp : p'.val = t.val * 10000 + p.val) :
    k0_pay1 (F := Ideal) (iblk0 V c 0 t) (iblk0 V c 1 t) (iblk0 V c 2 t) (ix2 p q)
      = G0 (V c main_arg0) (V c main_arg2) (V c main_v11) (ix2 p' q) := by
  rw [pay_apply]
  unfold G0
  refine congrArg₂ (· * ·) (Finset.sum_congr rfl fun k _ => congrArg₂ (· * ·) ?_ ?_) ?_
  · exact iblk_x V c t (ix2 p k) (ix2 p' k) hp rfl
  · exact iblk_w V c t (ix2 k q)
  · exact iblk_d V c t (ix2 p (0 : Fin 1)) (ix2 p' (0 : Fin 1)) hp rfl

/-- WHAT POINT `t` WRITES BACK is block `t` of the whole-array function. -/
theorem flushed_eq (c : Dev nD) (t : Fin cfg0.N) :
    (dat0 V c).flushed 3 t
      = ((cfg0.win 3).blk t).view.read (Elt Ideal) (G0 (V c main_arg0) (V c main_arg2) (V c main_v11)) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x64) hz, View.ld_unit_zero (S := S10000x1) hz]
  obtain ⟨-, -, -, -, -, -, e0, e1⟩ := idx_facts t
  funext j
  show k0_pay1 (F := Ideal) (iblk0 V c 0 t) (iblk0 V c 1 t) (iblk0 V c 2 t) j
      = G0 (V c main_arg0) (V c main_arg2) (V c main_v11) (((cfg0.win 3).blk t).view.emb j)
  obtain ⟨p, q, rfl⟩ : ∃ (p : Fin 10000) (q : Fin 64), j = ix2 p q := ⟨j 0, j 1, eq_ix2 j⟩
  have ht : t.val < 10 := lt_of_lt_of_eq t.isLt N_0
  have hemb : ((cfg0.win 3).blk t).view.emb (ix2 p q) = ix2 (⟨t.val * 10000 + p.val, by omega⟩ : Fin 100000) q := by
    funext a
    apply Fin.ext
    match a with
    | ⟨0, _⟩ => show win0_3.index t 0 * 10000 + 1 * p.val = t.val * 10000 + p.val; rw [e0]; omega
    | ⟨1, _⟩ => show win0_3.index t 1 * 64 + 1 * q.val = q.val; rw [e1]; omega
  rw [hemb]
  exact block_entry V c t p q _ rfl

/-- An index of the array is in point `t`'s block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v12).slice (win0_3.rect t)).set ↔ _
  rw [View.set_slice_whole, Rect.mem_set_unit]
  exact Iff.rfl

/-- The ten row blocks cover the array: row `r` lies in block `r / 10000`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, -, -, e0, e1⟩ := idx_facts t
  refine ⟨t, flush0_3 t, ?_⟩
  rw [mem_blk]
  intro a
  match a with
  | ⟨0, _⟩ => show win0_3.index t 0 * 10000 ≤ (i 0).val ∧ (i 0).val < win0_3.index t 0 * 10000 + 10000; rw [e0]; show (i 0).val / 10000 * 10000 ≤ _ ∧ _ < (i 0).val / 10000 * 10000 + 10000; omega
  | ⟨1, _⟩ => show win0_3.index t 1 * 64 ≤ (i 1).val ∧ (i 1).val < win0_3.index t 1 * 64 + 64; rw [e1]; omega

/-- THE ARRAY after the launch. -/
theorem final (c : Dev nD) :
    (dat0 V c).arrAt 3 cfg0.N = G0 (V c main_arg0) (V c main_arg2) (V c main_v11) :=
  (dat0 V c).arrAt_eq_of_cover 3 _ (fun t _ => flushed_eq V c t) cover

end Cert.KernelIdeal.Region0

end
-- ==== Proof.KRegion1.lean ====
/-
  The second kernel launch: on rows `p`, `r = relu (dcol p * (agg (p, ·) + hs (p, ·)) + brow)`, then `r` times the
  weights `w`, the row scaled again by `dcol p`.  Grid point `t` of 25 handles rows `4000 t … 4000 t + 3999`; the
  row blocks tile the output, so the output array ends as one function of the five input arrays, entry by entry.
-/
import proofs.«139158_j28166395527551_2_alg».proof.Proof.Gen.KernelIdeal.Frame
import proofs.«139158_j28166395527551_2_alg».proof.Proof.LibMatmulPlain
import proofs.«139158_j28166395527551_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

theorem hz : (![0, 0] : Fin 2 → Nat) = fun _ => 0 := funext fun a => by fin_cases a <;> rfl

/-- Entry `(p, q)` of the launch's result. -/
def G1 (agg hs : S100000x64.Idx → EReal) (dcol : S100000x1.Idx → EReal) (brow : S1x64.Idx → EReal)
    (w : S64x64.Idx → EReal) : S100000x64.Idx → EReal :=
  fun i => (∑ k : Fin 64, max (dcol (ix2 (i 0) (0 : Fin 1)) * (agg (ix2 (i 0) k) + hs (ix2 (i 0) k)) + brow (ix2 (0 : Fin 1) k))
      (Ideal.ofBits .f32 0x00000000#32) * w (ix2 k (i 1))) * dcol (ix2 (i 0) (0 : Fin 1))

/-- The body's stored value at an entry of the block. -/
theorem pay_apply (v0 : Vec Ideal S4000x1 .f32) (v2 v4 : Vec Ideal S4000x64 .f32) (v9 : Vec Ideal S1x64 .f32)
    (v16 : Vec Ideal S64x64 .f32) (v19 : Vec Ideal S4000x1 .f32) (p : Fin 4000) (q : Fin 64) :
    k1_pay1 (F := Ideal) v0 v2 v4 v9 v16 v19 (ix2 p q)
      = (∑ k : Fin 64, max (v0 (ix2 p (0 : Fin 1)) * (v2 (ix2 p k) + v4 (ix2 p k)) + v9 (ix2 (0 : Fin 1) k))
          (Ideal.ofBits .f32 0x00000000#32) * v16 (ix2 k q)) * v19 (ix2 p (0 : Fin 1)) := by
  unfold k1_pay1
  rw [mulf_apply]
  refine congrArg₂ (· * ·) ?_ ?_
  · refine (Cert.Lib.matmul_plain_zero_apply 4000 64 64 none _ _ p q).trans (Finset.sum_congr rfl fun k _ => congrArg₂ (· * ·) ?_ rfl)
    rw [truncf_apply, maximumf_apply, addf_apply, mulf_apply, addf_apply, Cert.Lib.broadcastTo_a1_ab_apply,
      broadcastTo_1b_ab_apply, shapeCast_self, shapeCast_self, shapeCast_self, shapeCast_self]
    rfl
  · rw [Cert.Lib.broadcastTo_a1_ab_apply, shapeCast_self]

variable (V : (c : Dev nD) → (b : Ref sig .tc) → Buf (Elt Ideal) ((c : Thread nD τ).loc b))

/-- The printed block index maps over the grid: the row-blocked windows sit at block `(t, 0)`, the bias row and the
    weights at `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Block `t` of the aggregated features is its rows `4000 t + ·`. -/
theorem iblk_agg (c : Dev nD) (t : Fin cfg1.N) (y : S4000x64.Idx) (i : S100000x64.Idx)
    (h0 : (i 0).val = t.val * 4000 + (y 0).val) (h1 : (i 1).val = (y 1).val) :
    (iblk1 V c 0 t : Vec Ideal S4000x64 .f32) y = (V c main_v22 : S100000x64.Idx → EReal) i := by
  have e0 := (idx_facts t).1
  have e1 := (idx_facts t).2.1
  unfold iblk1
  rw [View.read_apply]
  show V c main_v22 _ = V c main_v22 _
  congr 1
  funext a
  apply Fin.ext
  match a with
  | ⟨0, _⟩ => show win1_0.index t 0 * 4000 + 1 * (y 0).val = (i 0).val; rw [e0, h0]; omega
  | ⟨1, _⟩ => show win1_0.index t 1 * 64 + 1 * (y 1).val = (i 1).val; rw [e1, h1]; omega

/-- Block `t` of the scaled features is its rows `4000 t + ·`. -/
theorem iblk_hs (c : Dev nD) (t : Fin cfg1.N) (y : S4000x64.Idx) (i : S100000x64.Idx)
    (h0 : (i 0).val = t.val * 4000 + (y 0).val) (h1 : (i 1).val = (y 1).val) :
    (iblk1 V c 1 t : Vec Ideal S4000x64 .f32) y = (V c main_v12 : S100000x64.Idx → EReal) i := by
  have e0 := (idx_facts t).2.2.1
  have e1 := (idx_facts t).2.2.2.1
  unfold iblk1
  rw [View.read_apply]
  show V c main_v12 _ = V c main_v12 _
  congr 1
  funext a
  apply Fin.ext
  match a with
  | ⟨0, _⟩ => show win1_1.index t 0 * 4000 + 1 * (y 0).val = (i 0).val; rw [e0, h0]; omega
  | ⟨1, _⟩ => show win1_1.index t 1 * 64 + 1 * (y 1).val = (i 1).val; rw [e1, h1]; omega

/-- Block `t` of the scale column is its rows `4000 t + ·`. -/
theorem iblk_d (c : Dev nD) (t : Fin cfg1.N) (y : S4000x1.Idx) (i : S100000x1.Idx)
    (h0 : (i 0).val = t.val * 4000 + (y 0).val) (h1 : (i 1).val = (y 1).val) :
    (iblk1 V c 2 t : Vec Ideal S4000x1 .f32) y = (V c main_v11 : S100000x1.Idx → EReal) i := by
  have e0 := (idx_facts t).2.2.2.2.1
  have e1 := (idx_facts t).2.2.2.2.2.1
  unfold iblk1
  rw [View.read_apply]
  show V c main_v11 _ = V c main_v11 _
  congr 1
  funext a
  apply Fin.ext
  match a with
  | ⟨0, _⟩ => show win1_2.index t 0 * 4000 + 1 * (y 0).val = (i 0).val; rw [e0, h0]; omega
  | ⟨1, _⟩ => show win1_2.index t 1 * 1 + 1 * (y 1).val = (i 1).val; rw [e1, h1]; omega

/-- Every point's block of the bias row is the whole row. -/
theorem iblk_b (c : Dev nD) (t : Fin cfg1.N) (y : S1x64.Idx) :
    (iblk1 V c 3 t : Vec Ideal S1x64 .f32) y = (V c main_v23 : S1x64.Idx → EReal) y := by
  have e0 := (idx_facts t).2.2.2.2.2.2.1
  have e1 := (idx_facts t).2.2.2.2.2.2.2.1
  unfold iblk1
  rw [View.read_apply]
  show V c main_v23 _ = V c main_v23 _
  congr 1
  funext a
  apply Fin.ext
  match a with
  | ⟨0, _⟩ => show win1_3.index t 0 * 1 + 1 * (y 0).val = (y 0).val; rw [e0]; omega
  | ⟨1, _⟩ => show win1_3.index t 1 * 64 + 1 * (y 1).val = (y 1).val; rw [e1]; omega

/-- Every point's block of the weights is the whole matrix. -/
theorem iblk_w (c : Dev nD) (t : Fin cfg1.N) (y : S64x64.Idx) :
    (iblk1 V c 4 t : Vec Ideal S64x64 .f32) y = (V c main_arg4 : S64x64.Idx → EReal) y := by
  have e0 := (idx_facts t).2.2.2.2.2.2.2.2.1
  have e1 := (idx_facts t).2.2.2.2.2.2.2.2.2.1
  unfold iblk1
  rw [View.read_apply]
  show V c main_arg4 _ = V c main_arg4 _
  congr 1
  funext a
  apply Fin.ext
  match a with
  | ⟨0, _⟩ => show win1_4.index t 0 * 64 + 1 * (y 0).val = (y 0).val; rw [e0]; omega
  | ⟨1, _⟩ => show win1_4.index t 1 * 64 + 1 * (y 1).val = (y 1).val; rw [e1]; omega

/-- The stored block at `(p, q)` is the whole-array function at row `4000 t + p`. -/
theorem block_entry (c : Dev nD) (t : Fin cfg1.N) (p : Fin 4000) (q : Fin 64) (p' : Fin 100000)
    (hp : p'.val = t.val * 4000 + p.val) :
    k1_pay1 (F := Ideal) (iblk1 V c 2 t) (iblk1 V c 0 t) (iblk1 V c 1 t) (iblk1 V c 3 t) (iblk1 V c 4 t) (iblk1 V c 2 t) (ix2 p q)
      = G1 (V c main_v22) (V c main_v12) (V c main_v11) (V c main_v23) (V c main_arg4) (ix2 p' q) := by
  rw [pay_apply]
  unfold G1
  have hd := iblk_d V c t (ix2 p (0 : Fin 1)) (ix2 p' (0 : Fin 1)) hp rfl
  refine congrArg₂ (· * ·) (Finset.sum_congr rfl fun k _ => congrArg₂ (· * ·) ?_ ?_) hd
  · refine congrArg₂ max (congrArg₂ (· + ·) (congrArg₂ (· * ·) hd (congrArg₂ (· + ·) ?_ ?_)) ?_) rfl
    · exact iblk_agg V c t (ix2 p k) (ix2 p' k) hp rfl
    · exact iblk_hs V c t (ix2 p k) (ix2 p' k) hp rfl
    · exact iblk_b V c t (ix2 (0 : Fin 1) k)
  · exact iblk_w V c t (ix2 k q)

/-- WHAT POINT `t` WRITES BACK is block `t` of the whole-array function. -/
theorem flushed_eq (c : Dev nD) (t : Fin cfg1.N) :
    (dat1 V c).flushed 5 t
      = ((cfg1.win 5).blk t).view.read (Elt Ideal) (G1 (V c main_v22) (V c main_v12) (V c main_v11) (V c main_v23) (V c main_arg4)) := by
  show (cfg1.win 5).cut (grid1.coords t) ((dat1 V c).after 5 t) = _
  rw [after1_5]
  unfold out1_5
  rw [View.canon_unit_zero hz]
  simp only [View.ld_unit_zero (S := S4000x64) hz, View.ld_unit_zero (S := S4000x1) hz, View.ld_unit_zero (S := S1x64) hz, View.ld_unit_zero (S := S64x64) hz]
  have e0 := (idx_facts t).2.2.2.2.2.2.2.2.2.2.1
  have e1 := (idx_facts t).2.2.2.2.2.2.2.2.2.2.2
  funext j
  show k1_pay1 (F := Ideal) (iblk1 V c 2 t) (iblk1 V c 0 t) (iblk1 V c 1 t) (iblk1 V c 3 t) (iblk1 V c 4 t) (iblk1 V c 2 t) j
      = G1 (V c main_v22) (V c main_v12) (V c main_v11) (V c main_v23) (V c main_arg4) (((cfg1.win 5).blk t).view.emb j)
  obtain ⟨p, q, rfl⟩ : ∃ (p : Fin 4000) (q : Fin 64), j = ix2 p q := ⟨j 0, j 1, eq_ix2 j⟩
  have ht : t.val < 25 := lt_of_lt_of_eq t.isLt N_1
  have hemb : ((cfg1.win 5).blk t).view.emb (ix2 p q) = ix2 (⟨t.val * 4000 + p.val, by omega⟩ : Fin 100000) q := by
    funext a
    apply Fin.ext
    match a with
    | ⟨0, _⟩ => show win1_5.index t 0 * 4000 + 1 * p.val = t.val * 4000 + p.val; rw [e0]; omega
    | ⟨1, _⟩ => show win1_5.index t 1 * 64 + 1 * q.val = q.val; rw [e1]; omega
  rw [hemb]
  exact block_entry V c t p q _ rfl

/-- An index of the array is in point `t`'s block iff each coordinate is in the block's range on its axis. -/
theorem mem_blk (t : Fin cfg1.N) (i : S100000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v24).slice (win1_5.rect t)).set ↔ _
  rw [View.set_slice_whole, Rect.mem_set_unit]
  exact Iff.rfl

/-- The 25 row blocks cover the array: row `r` lies in block `r / 4000`. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 25 := N_1
  let t : Fin cfg1.N := ⟨(i 0).val / 4000, by rw [hN]; omega⟩
  have e0 := (idx_facts t).2.2.2.2.2.2.2.2.2.2.1
  have e1 := (idx_facts t).2.2.2.2.2.2.2.2.2.2.2
  refine ⟨t, flush1_5 t, ?_⟩
  rw [mem_blk]
  intro a
  match a with
  | ⟨0, _⟩ => show win1_5.index t 0 * 4000 ≤ (i 0).val ∧ (i 0).val < win1_5.index t 0 * 4000 + 4000; rw [e0]; show (i 0).val / 4000 * 4000 ≤ _ ∧ _ < (i 0).val / 4000 * 4000 + 4000; omega
  | ⟨1, _⟩ => show win1_5.index t 1 * 64 ≤ (i 1).val ∧ (i 1).val < win1_5.index t 1 * 64 + 64; rw [e1]; omega

/-- THE ARRAY after the launch. -/
theorem final (c : Dev nD) :
    (dat1 V c).arrAt 5 cfg1.N = G1 (V c main_v22) (V c main_v12) (V c main_v11) (V c main_v23) (V c main_arg4) :=
  (dat1 V c).arrAt_eq_of_cover 5 _ (fun t _ => flushed_eq V c t) cover

end Cert.KernelIdeal.Region1

end
-- ==== Proof.KRegion2.lean ====
/-
  The third kernel launch: on rows `p`, `r = relu (dcol p * (agg (p, ·) + hs (p, ·)) + brow)`, then the head
  `Σ k, r (p, k) * wlrow (0, k) + bl`.  Grid point `t` of 25 handles rows `4000 t … 4000 t + 3999`; the row blocks
  tile the output column, so it ends as one function of the six input arrays, entry by entry.
-/
import proofs.«139158_j28166395527551_2_alg».proof.Proof.Gen.KernelIdeal.Frame
import proofs.«139158_j28166395527551_2_alg».proof.Proof.LibMatmulPlain
import proofs.«139158_j28166395527551_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

theorem hz : (![0, 0] : Fin 2 → Nat) = fun _ => 0 := funext fun a => by fin_cases a <;> rfl

/-- Entry `(p, u)` of the launch's result. -/
def G2 (agg hs : S100000x64.Idx → EReal) (dcol : S100000x1.Idx → EReal) (brow wlrow : S1x64.Idx → EReal)
    (bl : S1x1.Idx → EReal) : S100000x1.Idx → EReal :=
  fun i => (∑ k : Fin 64, max (dcol (ix2 (i 0) (0 : Fin 1)) * (agg (ix2 (i 0) k) + hs (ix2 (i 0) k)) + brow (ix2 (0 : Fin 1) k))
      (Ideal.ofBits .f32 0x00000000#32) * wlrow (ix2 (0 : Fin 1) k)) + bl (ix2 (0 : Fin 1) (i 1))

/-- The body's stored value at an entry of the block: the lane sum over the 64 columns, plus the head's bias. -/
theorem pay_apply (v0 : Vec Ideal S4000x1 .f32) (v2 v4 : Vec Ideal S4000x64 .f32) (v9 v15 : Vec Ideal S1x64 .f32)
    (v21 : Vec Ideal S1x1 .f32) (p : Fin 4000) (u : Fin 1) :
    k2_pay1 (F := Ideal) v0 v2 v4 v9 v15 v21 (ix2 p u)
      = (∑ k : Fin 64, max (v0 (ix2 p (0 : Fin 1)) * (v2 (ix2 p k) + v4 (ix2 p k)) + v9 (ix2 (0 : Fin 1) k))
          (Ideal.ofBits .f32 0x00000000#32) * v15 (ix2 (0 : Fin 1) k)) + v21 (ix2 (0 : Fin 1) u) := by
  unfold k2_pay1
  rw [addf_apply]
  refine congrArg₂ (· + ·) ?_ ?_
  · rw [Cert.Lib.shapeCast_a_a1_apply]
    refine (Ideal.multiReduction_add_single _ _ _ _ _ (ix1 p)).trans ?_
    show (∑ k : Fin 64, _) = _
    refine Finset.sum_congr rfl fun k _ => ?_
    have hl : reduces_S4000x64_S4000.lift (ix1 p) k = ix2 p k := by
      funext a
      apply Fin.ext
      match a with
      | ⟨0, _⟩ => rfl
      | ⟨1, _⟩ => rfl
    rw [hl, mulf_apply, maximumf_apply, addf_apply, mulf_apply, addf_apply, Cert.Lib.broadcastTo_a1_ab_apply,
      broadcastTo_1b_ab_apply, broadcastTo_1b_ab_apply, shapeCast_self, shapeCast_self, shapeCast_self, shapeCast_self,
      shapeCast_self]
    rfl
  · rw [broadcastTo_1b_ab_apply, shapeCast_self]

variable (V : (c : Dev nD) → (b : Ref sig .tc) → Buf (Elt Ideal) ((c : Thread nD τ).loc b))

/-- The printed block index maps over the grid: the row-blocked windows sit at block `(t, 0)`, the three small operands
    at `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Block `t` of the aggregated features is its rows `4000 t + ·`. -/
theorem iblk_agg (c : Dev nD) (t : Fin cfg2.N) (y : S4000x64.Idx) (i : S100000x64.Idx)
    (h0 : (i 0).val = t.val * 4000 + (y 0).val) (h1 : (i 1).val = (y 1).val) :
    (iblk2 V c 0 t : Vec Ideal S4000x64 .f32) y = (V c main_v34 : S100000x64.Idx → EReal) i := by
  have e0 := (idx_facts t).1
  have e1 := (idx_facts t).2.1
  unfold iblk2
  rw [View.read_apply]
  show V c main_v34 _ = V c main_v34 _
  congr 1
  funext a
  apply Fin.ext
  match a with
  | ⟨0, _⟩ => show win2_0.index t 0 * 4000 + 1 * (y 0).val = (i 0).val; rw [e0, h0]; omega
  | ⟨1, _⟩ => show win2_0.index t 1 * 64 + 1 * (y 1).val = (i 1).val; rw [e1, h1]; omega

/-- Block `t` of the scaled features is its rows `4000 t + ·`. -/
theorem iblk_hs (c : Dev nD) (t : Fin cfg2.N) (y : S4000x64.Idx) (i : S100000x64.Idx)
    (h0 : (i 0).val = t.val * 4000 + (y 0).val) (h1 : (i 1).val = (y 1).val) :
    (iblk2 V c 1 t : Vec Ideal S4000x64 .f32) y = (V c main_v24 : S100000x64.Idx → EReal) i := by
  have e0 := (idx_facts t).2.2.1
  have e1 := (idx_facts t).2.2.2.1
  unfold iblk2
  rw [View.read_apply]
  show V c main_v24 _ = V c main_v24 _
  congr 1
  funext a
  apply Fin.ext
  match a with
  | ⟨0, _⟩ => show win2_1.index t 0 * 4000 + 1 * (y 0).val = (i 0).val; rw [e0, h0]; omega
  | ⟨1, _⟩ => show win2_1.index t 1 * 64 + 1 * (y 1).val = (i 1).val; rw [e1, h1]; omega

/-- Block `t` of the scale column is its rows `4000 t + ·`. -/
theorem iblk_d (c : Dev nD) (t : Fin cfg2.N) (y : S4000x1.Idx) (i : S100000x1.Idx)
    (h0 : (i 0).val = t.val * 4000 + (y 0).val) (h1 : (i 1).val = (y 1).val) :
    (iblk2 V c 2 t : Vec Ideal S4000x1 .f32) y = (V c main_v11 : S100000x1.Idx → EReal) i := by
  have e0 := (idx_facts t).2.2.2.2.1
  have e1 := (idx_facts t).2.2.2.2.2.1
  unfold iblk2
  rw [View.read_apply]
  show V c main_v11 _ = V c main_v11 _
  congr 1
  funext a
  apply Fin.ext
  match a with
  | ⟨0, _⟩ => show win2_2.index t 0 * 4000 + 1 * (y 0).val = (i 0).val; rw [e0, h0]; omega
  | ⟨1, _⟩ => show win2_2.index t 1 * 1 + 1 * (y 1).val = (i 1).val; rw [e1, h1]; omega

/-- Every point's block of the bias row is the whole row. -/
theorem iblk_b (c : Dev nD) (t : Fin cfg2.N) (y : S1x64.Idx) :
    (iblk2 V c 3 t : Vec Ideal S1x64 .f32) y = (V c main_v35 : S1x64.Idx → EReal) y := by
  have e0 := (idx_facts t).2.2.2.2.2.2.1
  have e1 := (idx_facts t).2.2.2.2.2.2.2.1
  unfold iblk2
  rw [View.read_apply]
  show V c main_v35 _ = V c main_v35 _
  congr 1
  funext a
  apply Fin.ext
  match a with
  | ⟨0, _⟩ => show win2_3.index t 0 * 1 + 1 * (y 0).val = (y 0).val; rw [e0]; omega
  | ⟨1, _⟩ => show win2_3.index t 1 * 64 + 1 * (y 1).val = (y 1).val; rw [e1]; omega

/-- Every point's block of the head's weight row is the whole row. -/
theorem iblk_wl (c : Dev nD) (t : Fin cfg2.N) (y : S1x64.Idx) :
    (iblk2 V c 4 t : Vec Ideal S1x64 .f32) y = (V c main_v36 : S1x64.Idx → EReal) y := by
  have e0 := (idx_facts t).2.2.2.2.2.2.2.2.1
  have e1 := (idx_facts t).2.2.2.2.2.2.2.2.2.1
  unfold iblk2
  rw [View.read_apply]
  show V c main_v36 _ = V c main_v36 _
  congr 1
  funext a
  apply Fin.ext
  match a with
  | ⟨0, _⟩ => show win2_4.index t 0 * 1 + 1 * (y 0).val = (y 0).val; rw [e0]; omega
  | ⟨1, _⟩ => show win2_4.index t 1 * 64 + 1 * (y 1).val = (y 1).val; rw [e1]; omega

/-- Every point's block of the head's bias is the one entry. -/
theorem iblk_bl (c : Dev nD) (t : Fin cfg2.N) (y : S1x1.Idx) :
    (iblk2 V c 5 t : Vec Ideal S1x1 .f32) y = (V c main_v37 : S1x1.Idx → EReal) y := by
  have e0 := (idx_facts t).2.2.2.2.2.2.2.2.2.2.1
  have e1 := (idx_facts t).2.2.2.2.2.2.2.2.2.2.2.1
  unfold iblk2
  rw [View.read_apply]
  show V c main_v37 _ = V c main_v37 _
  congr 1
  funext a
  apply Fin.ext
  match a with
  | ⟨0, _⟩ => show win2_5.index t 0 * 1 + 1 * (y 0).val = (y 0).val; rw [e0]; omega
  | ⟨1, _⟩ => show win2_5.index t 1 * 1 + 1 * (y 1).val = (y 1).val; rw [e1]; omega

/-- The stored block at `(p, u)` is the whole-array function at row `4000 t + p`. -/
theorem block_entry (c : Dev nD) (t : Fin cfg2.N) (p : Fin 4000) (u : Fin 1) (p' : Fin 100000)
    (hp : p'.val = t.val * 4000 + p.val) :
    k2_pay1 (F := Ideal) (iblk2 V c 2 t) (iblk2 V c 0 t) (iblk2 V c 1 t) (iblk2 V c 3 t) (iblk2 V c 4 t) (iblk2 V c 5 t) (ix2 p u)
      = G2 (V c main_v34) (V c main_v24) (V c main_v11) (V c main_v35) (V c main_v36) (V c main_v37) (ix2 p' u) := by
  rw [pay_apply]
  unfold G2
  have hd := iblk_d V c t (ix2 p (0 : Fin 1)) (ix2 p' (0 : Fin 1)) hp rfl
  refine congrArg₂ (· + ·) (Finset.sum_congr rfl fun k _ => congrArg₂ (· * ·) ?_ ?_) ?_
  · refine congrArg₂ max (congrArg₂ (· + ·) (congrArg₂ (· * ·) hd (congrArg₂ (· + ·) ?_ ?_)) ?_) rfl
    · exact iblk_agg V c t (ix2 p k) (ix2 p' k) hp rfl
    · exact iblk_hs V c t (ix2 p k) (ix2 p' k) hp rfl
    · exact iblk_b V c t (ix2 (0 : Fin 1) k)
  · exact iblk_wl V c t (ix2 (0 : Fin 1) k)
  · exact iblk_bl V c t (ix2 (0 : Fin 1) u)

/-- WHAT POINT `t` WRITES BACK is block `t` of the whole-array function. -/
theorem flushed_eq (c : Dev nD) (t : Fin cfg2.N) :
    (dat2 V c).flushed 6 t
      = ((cfg2.win 6).blk t).view.read (Elt Ideal) (G2 (V c main_v34) (V c main_v24) (V c main_v11) (V c main_v35) (V c main_v36) (V c main_v37)) := by
  show (cfg2.win 6).cut (grid2.coords t) ((dat2 V c).after 6 t) = _
  rw [after2_6]
  unfold out2_6
  rw [View.canon_unit_zero hz]
  simp only [View.ld_unit_zero (S := S4000x64) hz, View.ld_unit_zero (S := S4000x1) hz, View.ld_unit_zero (S := S1x64) hz, View.ld_unit_zero (S := S1x1) hz]
  have e0 := (idx_facts t).2.2.2.2.2.2.2.2.2.2.2.2.1
  have e1 := (idx_facts t).2.2.2.2.2.2.2.2.2.2.2.2.2
  funext j
  show k2_pay1 (F := Ideal) (iblk2 V c 2 t) (iblk2 V c 0 t) (iblk2 V c 1 t) (iblk2 V c 3 t) (iblk2 V c 4 t) (iblk2 V c 5 t) j
      = G2 (V c main_v34) (V c main_v24) (V c main_v11) (V c main_v35) (V c main_v36) (V c main_v37) (((cfg2.win 6).blk t).view.emb j)
  obtain ⟨p, u, rfl⟩ : ∃ (p : Fin 4000) (u : Fin 1), j = ix2 p u := ⟨j 0, j 1, eq_ix2 j⟩
  have ht : t.val < 25 := lt_of_lt_of_eq t.isLt N_2
  have hemb : ((cfg2.win 6).blk t).view.emb (ix2 p u) = ix2 (⟨t.val * 4000 + p.val, by omega⟩ : Fin 100000) u := by
    funext a
    apply Fin.ext
    match a with
    | ⟨0, _⟩ => show win2_6.index t 0 * 4000 + 1 * p.val = t.val * 4000 + p.val; rw [e0]; omega
    | ⟨1, _⟩ => show win2_6.index t 1 * 1 + 1 * u.val = u.val; rw [e1]; omega
  rw [hemb]
  exact block_entry V c t p u _ rfl

/-- An index of the array is in point `t`'s block iff each coordinate is in the block's range on its axis. -/
theorem mem_blk (t : Fin cfg2.N) (i : S100000x1.Idx) :
    i ∈ ((cfg2.win 6).blk t).view.set ↔ ∀ a : Fin 2, win2_6.index t a * S4000x1.size a ≤ (i a).val ∧ (i a).val < win2_6.index t a * S4000x1.size a + S4000x1.size a := by
  show i ∈ ((View.whole main_v38).slice (win2_6.rect t)).set ↔ _
  rw [View.set_slice_whole, Rect.mem_set_unit]
  exact Iff.rfl

/-- The 25 row blocks cover the column: row `r` lies in block `r / 4000`. -/
theorem cover (i : S100000x1.Idx) : ∃ t : Fin cfg2.N, (cfg2.win 6).flush t = true ∧ i ∈ ((cfg2.win 6).blk t).view.set := by
  have hi0 : (i 0).val < 100000 := (i 0).isLt
  have hi1 : (i 1).val < 1 := (i 1).isLt
  have hN : cfg2.N = 25 := N_2
  let t : Fin cfg2.N := ⟨(i 0).val / 4000, by rw [hN]; omega⟩
  have e0 := (idx_facts t).2.2.2.2.2.2.2.2.2.2.2.2.1
  have e1 := (idx_facts t).2.2.2.2.2.2.2.2.2.2.2.2.2
  refine ⟨t, flush2_6 t, ?_⟩
  rw [mem_blk]
  intro a
  match a with
  | ⟨0, _⟩ => show win2_6.index t 0 * 4000 ≤ (i 0).val ∧ (i 0).val < win2_6.index t 0 * 4000 + 4000; rw [e0]; show (i 0).val / 4000 * 4000 ≤ _ ∧ _ < (i 0).val / 4000 * 4000 + 4000; omega
  | ⟨1, _⟩ => show win2_6.index t 1 * 1 ≤ (i 1).val ∧ (i 1).val < win2_6.index t 1 * 1 + 1; rw [e1]; omega

/-- THE ARRAY after the launch. -/
theorem final (c : Dev nD) :
    (dat2 V c).arrAt 6 cfg2.N = G2 (V c main_v34) (V c main_v24) (V c main_v11) (V c main_v35) (V c main_v36) (V c main_v37) :=
  (dat2 V c).arrAt_eq_of_cover 6 _ (fun t _ => flushed_eq V c t) cover

end Cert.KernelIdeal.Region2

end
-- ==== Proof.KHost.lean ====
/-
  The kernel program's result buffer, followed back through its seven segments: four stretches of host operations
  (index preparation, degree and its inverse square root, two row gathers with their scatter-adds, reshapes) around the
  three kernel launches, each launch's output array being one whole-array function of its inputs.
-/
import proofs.«139158_j28166395527551_2_alg».proof.Proof.KRegion0
import proofs.«139158_j28166395527551_2_alg».proof.Proof.KRegion1
import proofs.«139158_j28166395527551_2_alg».proof.Proof.KRegion2
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.HostValue

open Cert.KernelIdeal Cert.KernelIdeal.Gen

/-! ## The host operations as functions of their operands -/

/-- Row `r` of the edge list, as a flat array of node numbers. -/
def edgeRow0 (a : IVec S2x1600000 32) : IVec S1600000 32 :=
  shapeCast S1600000 (extractStridedSlice S1x1600000 ![0, 0] a slices_S2x1600000_S1x1600000_0_0) shapeCasts_S1x1600000_S1600000
def edgeRow1 (a : IVec S2x1600000 32) : IVec S1600000 32 :=
  shapeCast S1600000 (extractStridedSlice S1x1600000 ![1, 0] a slices_S2x1600000_S1x1600000_1_0) shapeCasts_S1x1600000_S1600000

/-- The gather's start indices: a negative node number wrapped by the node count, as a column. -/
def srcIdx (v1 : IVec S1600000 32) : IVec S1600000x1 32 :=
  broadcastInDim S1600000x1 ![0] bcast_S1600000_S1600000x1_0
    (select (cmpi .slt v1 (broadcastInDim S1600000 ![] bcast_S_S1600000 (constantI S_ 32 0#32)))
      (addi v1 (broadcastInDim S1600000 ![] bcast_S_S1600000 (constantI S_ 32 100000#32))) v1)

/-- The scatter's indices: the destination node numbers as a column. -/
def dstIdx (v3 : IVec S1600000 32) : IVec S1600000x1 32 :=
  broadcastInDim S1600000x1 ![0] bcast_S1600000_S1600000x1_0 v3

/-- The all-zero feature array the scatter-add starts from. -/
def zeros64 : FVec Ideal S100000x64 .f32 :=
  broadcastInDim S100000x64 ![] bcast_S_S100000x64 (constant (F := Ideal) S_ .f32 0x00000000#32)

/-- In-degree plus one: ones scattered onto the destination nodes, plus one. -/
def degOf (v3 : IVec S1600000 32) : FVec Ideal S100000 .f32 :=
  addf (Host.scatterAdd scatter_S100000_S1600000x1_S1600000_n_0_0_1
      (broadcastInDim S100000 ![] bcast_S_S100000 (constant (F := Ideal) S_ .f32 0x00000000#32)) (dstIdx v3)
      (broadcastInDim S1600000 ![] bcast_S_S1600000 (constant (F := Ideal) S_ .f32 0x3F800000#32)))
    (broadcastInDim S100000 ![] bcast_S_S100000 (constant (F := Ideal) S_ .f32 0x3F800000#32))

/-- Gather the source rows of `hs`, add them onto their destination rows. -/
def aggOf (hs : FVec Ideal S100000x64 .f32) (v1 v3 : IVec S1600000 32) : FVec Ideal S100000x64 .f32 :=
  Host.scatterAdd scatter_S100000x64_S1600000x1_S1600000x64_1_0_0_1 zeros64 (dstIdx v3)
    (Host.gather gather_S100000x64_S1600000x1_S1600000x64_1_0_n_n_0_1_164 hs (srcIdx v1))

variable (X : Valuation τ sig (Elt Ideal))

/-! ## The first stretch -/

theorem s0_v1 : after hostOps0 X (Proc.devRef .tc main_v1) = edgeRow0 (X (Proc.devRef .tc main_arg1)) := by
  after_results; rfl
theorem s0_v3 : after hostOps0 X (Proc.devRef .tc main_v3) = edgeRow1 (X (Proc.devRef .tc main_arg1)) := by
  after_results; rfl
theorem s0_v11 : after hostOps0 X (Proc.devRef .tc main_v11)
    = shapeCast S100000x1 (Host.rsqrt (degOf (edgeRow1 (X (Proc.devRef .tc main_arg1))))) shapeCasts_S100000_S100000x1 := by
  after_results; rfl

theorem s0_arg0 : after hostOps0 X (Proc.devRef .tc main_arg0) = X (Proc.devRef .tc main_arg0) := by
  after_results
theorem s0_arg2 : after hostOps0 X (Proc.devRef .tc main_arg2) = X (Proc.devRef .tc main_arg2) := by
  after_results
theorem s0_arg3 : after hostOps0 X (Proc.devRef .tc main_arg3) = X (Proc.devRef .tc main_arg3) := by
  after_results
theorem s0_arg4 : after hostOps0 X (Proc.devRef .tc main_arg4) = X (Proc.devRef .tc main_arg4) := by
  after_results
theorem s0_arg5 : after hostOps0 X (Proc.devRef .tc main_arg5) = X (Proc.devRef .tc main_arg5) := by
  after_results
theorem s0_arg6 : after hostOps0 X (Proc.devRef .tc main_arg6) = X (Proc.devRef .tc main_arg6) := by
  after_results
theorem s0_arg7 : after hostOps0 X (Proc.devRef .tc main_arg7) = X (Proc.devRef .tc main_arg7) := by
  after_results

/-! ## The second stretch -/

theorem s1_v22 : after hostOps1 X (Proc.devRef .tc main_v22)
    = aggOf (X (Proc.devRef .tc main_v12)) (X (Proc.devRef .tc main_v1)) (X (Proc.devRef .tc main_v3)) := by
  after_results; rfl
theorem s1_v23 : after hostOps1 X (Proc.devRef .tc main_v23)
    = shapeCast S1x64 (X (Proc.devRef .tc main_arg3)) shapeCasts_S64_S1x64 := by
  after_results; rfl
theorem s1_v12 : after hostOps1 X (Proc.devRef .tc main_v12) = X (Proc.devRef .tc main_v12) := by
  after_results
theorem s1_v11 : after hostOps1 X (Proc.devRef .tc main_v11) = X (Proc.devRef .tc main_v11) := by
  after_results
theorem s1_v1 : after hostOps1 X (Proc.devRef .tc main_v1) = X (Proc.devRef .tc main_v1) := by
  after_results
theorem s1_v3 : after hostOps1 X (Proc.devRef .tc main_v3) = X (Proc.devRef .tc main_v3) := by
  after_results
theorem s1_arg4 : after hostOps1 X (Proc.devRef .tc main_arg4) = X (Proc.devRef .tc main_arg4) := by
  after_results
theorem s1_arg5 : after hostOps1 X (Proc.devRef .tc main_arg5) = X (Proc.devRef .tc main_arg5) := by
  after_results
theorem s1_arg6 : after hostOps1 X (Proc.devRef .tc main_arg6) = X (Proc.devRef .tc main_arg6) := by
  after_results
theorem s1_arg7 : after hostOps1 X (Proc.devRef .tc main_arg7) = X (Proc.devRef .tc main_arg7) := by
  after_results

/-! ## The third stretch -/

theorem s2_v34 : after hostOps2 X (Proc.devRef .tc main_v34)
    = aggOf (X (Proc.devRef .tc main_v24)) (X (Proc.devRef .tc main_v1)) (X (Proc.devRef .tc main_v3)) := by
  after_results; rfl
theorem s2_v35 : after hostOps2 X (Proc.devRef .tc main_v35)
    = shapeCast S1x64 (X (Proc.devRef .tc main_arg5)) shapeCasts_S64_S1x64 := by
  after_results; rfl
theorem s2_v36 : after hostOps2 X (Proc.devRef .tc main_v36)
    = shapeCast S1x64 (X (Proc.devRef .tc main_arg6)) shapeCasts_S64x1_S1x64 := by
  after_results; rfl
theorem s2_v37 : after hostOps2 X (Proc.devRef .tc main_v37)
    = shapeCast S1x1 (X (Proc.devRef .tc main_arg7)) shapeCasts_S1_S1x1 := by
  after_results; rfl
theorem s2_v24 : after hostOps2 X (Proc.devRef .tc main_v24) = X (Proc.devRef .tc main_v24) := by
  after_results
theorem s2_v11 : after hostOps2 X (Proc.devRef .tc main_v11) = X (Proc.devRef .tc main_v11) := by
  after_results

/-! ## The last stretch -/

theorem s3_v39 : after hostOps3 X (Proc.devRef .tc main_v39)
    = shapeCast S100000 (X (Proc.devRef .tc main_v38)) shapeCasts_S100000x1_S100000 := by
  after_results; rfl

end Cert.KernelIdeal.HostValue

end
-- ==== Proof.KValue.lean ====
/-
  The kernel program's result as one function of its eight argument arrays: the segments' values composed.
-/
import proofs.«139158_j28166395527551_2_alg».proof.Proof.KHost

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.HostValue

open Cert.KernelIdeal Cert.KernelIdeal.Gen

/-- The per-node scale as a column: the inverse square root of the degree. -/
def dcolOf (a1 : IVec S2x1600000 32) : FVec Ideal S100000x1 .f32 :=
  shapeCast S100000x1 (Host.rsqrt (degOf (edgeRow1 a1))) shapeCasts_S100000_S100000x1

/-- The first launch's output: the scaled first-layer features. -/
def hs1Of (a0 : FVec Ideal S100000x128 .f32) (a1 : IVec S2x1600000 32) (a2 : FVec Ideal S128x64 .f32) : FVec Ideal S100000x64 .f32 :=
  Region0.G0 a0 a2 (dcolOf a1)

/-- The second launch's output: the scaled second-layer features. -/
def hs2Of (a0 : FVec Ideal S100000x128 .f32) (a1 : IVec S2x1600000 32) (a2 : FVec Ideal S128x64 .f32)
    (a3 : FVec Ideal S64 .f32) (a4 : FVec Ideal S64x64 .f32) : FVec Ideal S100000x64 .f32 :=
  Region1.G1 (aggOf (hs1Of a0 a1 a2) (edgeRow0 a1) (edgeRow1 a1)) (hs1Of a0 a1 a2) (dcolOf a1)
    (shapeCast S1x64 a3 shapeCasts_S64_S1x64) a4

/-- The program's result. -/
def outOf (a0 : FVec Ideal S100000x128 .f32) (a1 : IVec S2x1600000 32) (a2 : FVec Ideal S128x64 .f32)
    (a3 : FVec Ideal S64 .f32) (a4 : FVec Ideal S64x64 .f32) (a5 : FVec Ideal S64 .f32) (a6 : FVec Ideal S64x1 .f32)
    (a7 : FVec Ideal S1 .f32) : FVec Ideal S100000 .f32 :=
  shapeCast S100000 (Region2.G2 (aggOf (hs2Of a0 a1 a2 a3 a4) (edgeRow0 a1) (edgeRow1 a1)) (hs2Of a0 a1 a2 a3 a4) (dcolOf a1)
    (shapeCast S1x64 a5 shapeCasts_S64_S1x64) (shapeCast S1x64 a6 shapeCasts_S64x1_S1x64) (shapeCast S1x1 a7 shapeCasts_S1_S1x1))
    shapeCasts_S100000x1_S100000

variable (m : (ℓ : Loc nD τ sig) → Buf (Elt Ideal) ℓ) (ρ : Dev nD → PrngReg) (c : Dev nD)

/-! ## After the first stretch -/

theorem W1_v1 : W1 m ρ c (Proc.devRef .tc main_v1) = edgeRow0 (m ((c : Thread nD τ).loc main_arg1)) := s0_v1 (W0 m ρ c)
theorem W1_v3 : W1 m ρ c (Proc.devRef .tc main_v3) = edgeRow1 (m ((c : Thread nD τ).loc main_arg1)) := s0_v3 (W0 m ρ c)
theorem W1_v11 : W1 m ρ c (Proc.devRef .tc main_v11) = dcolOf (m ((c : Thread nD τ).loc main_arg1)) := s0_v11 (W0 m ρ c)
theorem W1_arg0 : W1 m ρ c (Proc.devRef .tc main_arg0) = (m ((c : Thread nD τ).loc main_arg0)) := s0_arg0 (W0 m ρ c)
theorem W1_arg2 : W1 m ρ c (Proc.devRef .tc main_arg2) = (m ((c : Thread nD τ).loc main_arg2)) := s0_arg2 (W0 m ρ c)
theorem W1_arg3 : W1 m ρ c (Proc.devRef .tc main_arg3) = (m ((c : Thread nD τ).loc main_arg3)) := s0_arg3 (W0 m ρ c)
theorem W1_arg4 : W1 m ρ c (Proc.devRef .tc main_arg4) = (m ((c : Thread nD τ).loc main_arg4)) := s0_arg4 (W0 m ρ c)
theorem W1_arg5 : W1 m ρ c (Proc.devRef .tc main_arg5) = (m ((c : Thread nD τ).loc main_arg5)) := s0_arg5 (W0 m ρ c)
theorem W1_arg6 : W1 m ρ c (Proc.devRef .tc main_arg6) = (m ((c : Thread nD τ).loc main_arg6)) := s0_arg6 (W0 m ρ c)
theorem W1_arg7 : W1 m ρ c (Proc.devRef .tc main_arg7) = (m ((c : Thread nD τ).loc main_arg7)) := s0_arg7 (W0 m ρ c)

/-! ## After the first launch -/

theorem W2_v12 : W2 m ρ c (Proc.devRef .tc main_v12) = hs1Of (m ((c : Thread nD τ).loc main_arg0)) (m ((c : Thread nD τ).loc main_arg1)) (m ((c : Thread nD τ).loc main_arg2)) := by
  refine (W2_arr m ρ c 3).trans ((Region0.final (V1 m ρ) c).trans ?_)
  show Region0.G0 (W1 m ρ c (Proc.devRef .tc main_arg0)) (W1 m ρ c (Proc.devRef .tc main_arg2)) (W1 m ρ c (Proc.devRef .tc main_v11)) = _
  rw [W1_arg0, W1_arg2, W1_v11]
  rfl
theorem W2_v11 : W2 m ρ c (Proc.devRef .tc main_v11) = dcolOf (m ((c : Thread nD τ).loc main_arg1)) :=
  ((W2_arr m ρ c 2).trans (((dat0 (V1 m ρ) c).arrAt_in 2 rfl _).trans (A_eq0 (V1 m ρ) c 2))).trans (W1_v11 m ρ c)
theorem W2_v1 : W2 m ρ c (Proc.devRef .tc main_v1) = edgeRow0 (m ((c : Thread nD τ).loc main_arg1)) :=
  (W2_of_ne m ρ c main_v1 (by decide)).trans (W1_v1 m ρ c)
theorem W2_v3 : W2 m ρ c (Proc.devRef .tc main_v3) = edgeRow1 (m ((c : Thread nD τ).loc main_arg1)) :=
  (W2_of_ne m ρ c main_v3 (by decide)).trans (W1_v3 m ρ c)
theorem W2_arg3 : W2 m ρ c (Proc.devRef .tc main_arg3) = (m ((c : Thread nD τ).loc main_arg3)) :=
  (W2_of_ne m ρ c main_arg3 (by decide)).trans (W1_arg3 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)

/-! ## After the second stretch -/

theorem W3_v22 : W3 m ρ c (Proc.devRef .tc main_v22)
    = aggOf (hs1Of (m ((c : Thread nD τ).loc main_arg0)) (m ((c : Thread nD τ).loc main_arg1)) (m ((c : Thread nD τ).loc main_arg2))) (edgeRow0 (m ((c : Thread nD τ).loc main_arg1))) (edgeRow1 (m ((c : Thread nD τ).loc main_arg1))) := by
  refine (s1_v22 (W2 m ρ c)).trans ?_
  rw [W2_v12, W2_v1, W2_v3]
theorem W3_v23 : W3 m ρ c (Proc.devRef .tc main_v23) = shapeCast S1x64 (m ((c : Thread nD τ).loc main_arg3)) shapeCasts_S64_S1x64 := by
  refine (s1_v23 (W2 m ρ c)).trans ?_
  rw [W2_arg3]
theorem W3_v12 : W3 m ρ c (Proc.devRef .tc main_v12) = hs1Of (m ((c : Thread nD τ).loc main_arg0)) (m ((c : Thread nD τ).loc main_arg1)) (m ((c : Thread nD τ).loc main_arg2)) :=
  (s1_v12 (W2 m ρ c)).trans (W2_v12 m ρ c)
theorem W3_v11 : W3 m ρ c (Proc.devRef .tc main_v11) = dcolOf (m ((c : Thread nD τ).loc main_arg1)) := (s1_v11 (W2 m ρ c)).trans (W2_v11 m ρ c)
theorem W3_v1 : W3 m ρ c (Proc.devRef .tc main_v1) = edgeRow0 (m ((c : Thread nD τ).loc main_arg1)) := (s1_v1 (W2 m ρ c)).trans (W2_v1 m ρ c)
theorem W3_v3 : W3 m ρ c (Proc.devRef .tc main_v3) = edgeRow1 (m ((c : Thread nD τ).loc main_arg1)) := (s1_v3 (W2 m ρ c)).trans (W2_v3 m ρ c)
theorem W3_arg4 : W3 m ρ c (Proc.devRef .tc main_arg4) = (m ((c : Thread nD τ).loc main_arg4)) := (s1_arg4 (W2 m ρ c)).trans (W2_arg4 m ρ c)
theorem W3_arg5 : W3 m ρ c (Proc.devRef .tc main_arg5) = (m ((c : Thread nD τ).loc main_arg5)) := (s1_arg5 (W2 m ρ c)).trans (W2_arg5 m ρ c)
theorem W3_arg6 : W3 m ρ c (Proc.devRef .tc main_arg6) = (m ((c : Thread nD τ).loc main_arg6)) := (s1_arg6 (W2 m ρ c)).trans (W2_arg6 m ρ c)
theorem W3_arg7 : W3 m ρ c (Proc.devRef .tc main_arg7) = (m ((c : Thread nD τ).loc main_arg7)) := (s1_arg7 (W2 m ρ c)).trans (W2_arg7 m ρ c)

/-! ## After the second launch -/

theorem W4_v24 : W4 m ρ c (Proc.devRef .tc main_v24)
    = hs2Of (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 5).trans ((Region1.final (V3 m ρ) c).trans ?_)
  show Region1.G1 (W3 m ρ c (Proc.devRef .tc main_v22)) (W3 m ρ c (Proc.devRef .tc main_v12)) (W3 m ρ c (Proc.devRef .tc main_v11)) (W3 m ρ c (Proc.devRef .tc main_v23)) (W3 m ρ c (Proc.devRef .tc main_arg4)) = _
  rw [W3_v22, W3_v12, W3_v11, W3_v23, W3_arg4]
  rfl
theorem W4_v11 : W4 m ρ c (Proc.devRef .tc main_v11) = dcolOf (m ((c : Thread nD τ).loc main_arg1)) :=
  ((W4_arr m ρ c 2).trans (((dat1 (V3 m ρ) c).arrAt_in 2 rfl _).trans (A_eq1 (V3 m ρ) c 2))).trans (W3_v11 m ρ c)
theorem W4_v1 : W4 m ρ c (Proc.devRef .tc main_v1) = edgeRow0 (m ((c : Thread nD τ).loc main_arg1)) :=
  (W4_of_ne m ρ c main_v1 (by decide)).trans (W3_v1 m ρ c)
theorem W4_v3 : W4 m ρ c (Proc.devRef .tc main_v3) = edgeRow1 (m ((c : Thread nD τ).loc main_arg1)) :=
  (W4_of_ne m ρ c main_v3 (by decide)).trans (W3_v3 m ρ c)
theorem W4_arg5 : W4 m ρ c (Proc.devRef .tc main_arg5) = (m ((c : Thread nD τ).loc main_arg5)) :=
  (W4_of_ne m ρ c main_arg5 (by decide)).trans (W3_arg5 m ρ c)
theorem W4_arg6 : W4 m ρ c (Proc.devRef .tc main_arg6) = (m ((c : Thread nD τ).loc main_arg6)) :=
  (W4_of_ne m ρ c main_arg6 (by decide)).trans (W3_arg6 m ρ c)
theorem W4_arg7 : W4 m ρ c (Proc.devRef .tc main_arg7) = (m ((c : Thread nD τ).loc main_arg7)) :=
  (W4_of_ne m ρ c main_arg7 (by decide)).trans (W3_arg7 m ρ c)

/-! ## After the third stretch, the third launch and the last reshape -/

theorem W5_v34 : W5 m ρ c (Proc.devRef .tc main_v34)
    = aggOf (hs2Of (m ((c : Thread nD τ).loc main_arg0)) (m ((c : Thread nD τ).loc main_arg1)) (m ((c : Thread nD τ).loc main_arg2)) (m ((c : Thread nD τ).loc main_arg3)) (m ((c : Thread nD τ).loc main_arg4))) (edgeRow0 (m ((c : Thread nD τ).loc main_arg1))) (edgeRow1 (m ((c : Thread nD τ).loc main_arg1))) := by
  refine (s2_v34 (W4 m ρ c)).trans ?_
  rw [W4_v24, W4_v1, W4_v3]
theorem W5_v24 : W5 m ρ c (Proc.devRef .tc main_v24)
    = hs2Of (m ((c : Thread nD τ).loc main_arg0)) (m ((c : Thread nD τ).loc main_arg1)) (m ((c : Thread nD τ).loc main_arg2)) (m ((c : Thread nD τ).loc main_arg3)) (m ((c : Thread nD τ).loc main_arg4)) :=
  (s2_v24 (W4 m ρ c)).trans (W4_v24 m ρ c)
theorem W5_v11 : W5 m ρ c (Proc.devRef .tc main_v11) = dcolOf (m ((c : Thread nD τ).loc main_arg1)) := (s2_v11 (W4 m ρ c)).trans (W4_v11 m ρ c)
theorem W5_v35 : W5 m ρ c (Proc.devRef .tc main_v35) = shapeCast S1x64 (m ((c : Thread nD τ).loc main_arg5)) shapeCasts_S64_S1x64 := by
  refine (s2_v35 (W4 m ρ c)).trans ?_
  rw [W4_arg5]
theorem W5_v36 : W5 m ρ c (Proc.devRef .tc main_v36) = shapeCast S1x64 (m ((c : Thread nD τ).loc main_arg6)) shapeCasts_S64x1_S1x64 := by
  refine (s2_v36 (W4 m ρ c)).trans ?_
  rw [W4_arg6]
theorem W5_v37 : W5 m ρ c (Proc.devRef .tc main_v37) = shapeCast S1x1 (m ((c : Thread nD τ).loc main_arg7)) shapeCasts_S1_S1x1 := by
  refine (s2_v37 (W4 m ρ c)).trans ?_
  rw [W4_arg7]

/-- THE RESULT BUFFER after the whole program, as one function of the argument arrays. -/
theorem W7_v39 : W7 m ρ c (Proc.devRef .tc main_v39)
    = outOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (s3_v39 (W6 m ρ c)).trans ?_
  unfold outOf
  refine congrArg (fun a => shapeCast S100000 a shapeCasts_S100000x1_S100000) ?_
  refine (W6_arr m ρ c 6).trans ((Region2.final (V5 m ρ) c).trans ?_)
  show Region2.G2 (W5 m ρ c (Proc.devRef .tc main_v34)) (W5 m ρ c (Proc.devRef .tc main_v24)) (W5 m ρ c (Proc.devRef .tc main_v11)) (W5 m ρ c (Proc.devRef .tc main_v35)) (W5 m ρ c (Proc.devRef .tc main_v36)) (W5 m ρ c (Proc.devRef .tc main_v37)) = _
  rw [W5_v34, W5_v24, W5_v11, W5_v35, W5_v36, W5_v37]

end Cert.KernelIdeal.HostValue

end
-- ==== Proof.GcnSpec.lean ====
/-
  The two forms of a two-layer graph convolution with a linear head, as whole-array functions over the extended
  reals, index by index.  Nodes are rows `p < 100000`, features are columns; an edge list is read only through
  three integer index arrays (rows to gather from, rows to scatter onto) and the host's row gather and row
  scatter-add, which stay unopened here.

  * the FACTORED form scales the features by `dinv` before the edges are followed and once more after:
    `relu (dinv p * (Σ_{edges into p} hs[src] + hs p) + b)` with `hs = h * dinv`;
  * the EDGE-WEIGHTED form weighs every edge by `dinv[src] * dinv[dst]` and adds the self loop `h p / deg p`.
-/
import Idealize.ShloMosaic.Lib.ValueIdx
import Idealize.ShloMosaic.PureOps.Ideal

noncomputable section

namespace Cert.Gcn

open Idealize.ShloMosaic Idealize.ShloMosaic.ValueIdx

abbrev SN : Shape := ⟨1, ![100000]⟩
abbrev SNC : Shape := ⟨2, ![100000, 64]⟩
abbrev SE1 : Shape := ⟨2, ![1600000, 1]⟩
abbrev SE : Shape := ⟨1, ![1600000]⟩
abbrev SEC : Shape := ⟨2, ![1600000, 64]⟩
abbrev SC : Shape := ⟨1, ![64]⟩

/-- Rows times a weight matrix: entry `(p, q)` is `Σ k, a (p, k) * w (k, q)`. -/
def mm {K : Nat} (a : (⟨2, ![100000, K]⟩ : Shape).Idx → EReal) (w : (⟨2, ![K, 64]⟩ : Shape).Idx → EReal) :
    SNC.Idx → EReal :=
  fun i => ∑ k : Fin K, a (ix2 (i 0) k) * w (ix2 k (i 1))

/-- Every row `p` multiplied by `d p`. -/
def scaleRows (d : SN.Idx → EReal) (h : SNC.Idx → EReal) : SNC.Idx → EReal :=
  fun i => h i * d (ix1 (i 0))

section
variable (dG : GatherDims SNC SE1 SEC) (dg : GatherDims SN SE1 SE) (dS : ScatterDims SNC SE1 SEC)
variable (IS IS' ID' ID : IVec SE1 32) (z : SNC.Idx → EReal)

/-- The factored layer on already scaled features `hs`:
    `relu (d p * (z + Σ_{updates landing on (p, q)} hs[gathered] + hs (p, q)) + b q)`. -/
def kComb (d : SN.Idx → EReal) (b : SC.Idx → EReal) (hs : SNC.Idx → EReal) : SNC.Idx → EReal :=
  fun i => max (d (ix1 (i 0)) * (Ideal.hostScatterAdd dS z ID (Host.gather dG hs IS) i + hs i) + b (ix1 (i 1)))
    (Ideal.ofBits .f32 0x00000000#32)

/-- The edge-weighted layer on unscaled features `h`: every gathered row times `d[src] * d[dst]`, scattered; plus
    the self loop `h (p, q) * (1 / deg p)`; plus the bias; `relu`. -/
def rComb (deg d : SN.Idx → EReal) (b : SC.Idx → EReal) (h : SNC.Idx → EReal) : SNC.Idx → EReal :=
  fun i => max ((Ideal.hostScatterAdd dS z ID
        (fun u => Host.gather dG h IS u * (Host.gather dg d IS' (ix1 (u 0)) * Host.gather dg d ID' (ix1 (u 0)))) i
      + h i * Ideal.div (Ideal.ofBits .f32 0x3F800000#32) (deg (ix1 (i 0)))) + b (ix1 (i 1)))
    (Ideal.ofBits .f32 0x00000000#32)

/-- The linear head: `Σ k, r (p, k) * wl (k, 0) + bl`. -/
def head (r : SNC.Idx → EReal) (wl : (⟨2, ![64, 1]⟩ : Shape).Idx → EReal) (bl : (⟨1, ![1]⟩ : Shape).Idx → EReal) :
    SN.Idx → EReal :=
  fun p => (∑ k : Fin 64, r (ix2 (p 0) k) * wl (ix2 k (0 : Fin 1))) + bl (ix1 (0 : Fin 1))

/-- The factored network: both layers on scaled features, then the head. -/
def kerOut (deg : SN.Idx → EReal) (x : (⟨2, ![100000, 128]⟩ : Shape).Idx → EReal)
    (w1 : (⟨2, ![128, 64]⟩ : Shape).Idx → EReal) (b1 : SC.Idx → EReal) (w2 : (⟨2, ![64, 64]⟩ : Shape).Idx → EReal)
    (b2 : SC.Idx → EReal) (wl : (⟨2, ![64, 1]⟩ : Shape).Idx → EReal) (bl : (⟨1, ![1]⟩ : Shape).Idx → EReal) :
    SN.Idx → EReal :=
  let d : SN.Idx → EReal := fun j => Ideal.rsqrt (deg j)
  head (kComb dG dS IS ID z d b2 (scaleRows d (mm (kComb dG dS IS ID z d b1 (scaleRows d (mm x w1))) w2))) wl bl

/-- The edge-weighted network. -/
def refOut (deg : SN.Idx → EReal) (x : (⟨2, ![100000, 128]⟩ : Shape).Idx → EReal)
    (w1 : (⟨2, ![128, 64]⟩ : Shape).Idx → EReal) (b1 : SC.Idx → EReal) (w2 : (⟨2, ![64, 64]⟩ : Shape).Idx → EReal)
    (b2 : SC.Idx → EReal) (wl : (⟨2, ![64, 1]⟩ : Shape).Idx → EReal) (bl : (⟨1, ![1]⟩ : Shape).Idx → EReal) :
    SN.Idx → EReal :=
  let d : SN.Idx → EReal := fun j => Ideal.rsqrt (deg j)
  head (rComb dG dg dS IS IS' ID' ID z deg d b2 (mm (rComb dG dg dS IS IS' ID' ID z deg d b1 (mm x w1)) w2)) wl bl

end

end Cert.Gcn

end
-- ==== Proof.KSpecEq.lean ====
/-
  The kernel program's composed value is the factored form of the two-layer graph convolution: each launch's
  whole-array function, read at an entry, is a scaled matrix product over the factored layer before it.
-/
import proofs.«139158_j28166395527551_2_alg».proof.Proof.KValue
import proofs.«139158_j28166395527551_2_alg».proof.Proof.GcnSpec
import Idealize.ShloMosaic.Lib.ValueLayout

set_option maxRecDepth 16384

noncomputable section

open Idealize.ShloMosaic Idealize.ShloMosaic.TcCoe Idealize.SL.Sem Idealize.ShloMosaic.ValueIdx

namespace Cert.KernelIdeal.HostValue

open Cert.KernelIdeal Cert.KernelIdeal.Gen Cert.Gcn

/-! ## Small reshapes read at an entry -/

/-- An `[a, 1]` column cast to `[a]` reads, at `i`, the column at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a, 1]` column cast to a `[1, a]` row reads, at `(0, k)`, the column at `(k, 0)`. -/
theorem shapeCast_a1_1a_apply {α : Type} {a : ℕ} (x : (⟨2, ![a, 1]⟩ : Shape).Idx → α)
    (h : (⟨2, ![a, 1]⟩ : Shape).ShapeCasts ⟨2, ![1, a]⟩) (k : Fin a) :
    shapeCast ⟨2, ![1, a]⟩ x h (ix2 (0 : Fin 1) k) = x (ix2 k (0 : Fin 1)) :=
  shapeCast_apply x h _ _ (by
    rw [Shape.rowMajor_val_two, Shape.rowMajor_val_two]
    show k.val * 1 + 0 = 0 * a + k.val
    omega)

/-- The host's elementwise inverse square root at an entry. -/
theorem hostRsqrt_apply {s : Shape} (g : FVec Ideal s .f32) (i : s.Idx) : Host.rsqrt g i = Ideal.rsqrt (g i) := rfl

/-- The host's scatter-add is the exact sum at the ideal values. -/
theorem aggOf_eq (hs : FVec Ideal S100000x64 .f32) (v1 v3 : IVec S1600000 32) :
    aggOf hs v1 v3 = Ideal.hostScatterAdd scatter_S100000x64_S1600000x1_S1600000x64_1_0_0_1 zeros64 (dstIdx v3)
      (Host.gather gather_S100000x64_S1600000x1_S1600000x64_1_0_n_n_0_1_164 hs (srcIdx v1)) := rfl

/-! ## The three launches against the factored layer -/

section
variable (dG : GatherDims SNC SE1 SEC) (dS : ScatterDims SNC SE1 SEC) (IS ID : IVec SE1 32) (z : SNC.Idx → EReal)
variable (d : SN.Idx → EReal) (dcol : S100000x1.Idx → EReal) (hd : ∀ p : Fin 100000, dcol (ix2 p (0 : Fin 1)) = d (ix1 p))

include hd in
/-- The first launch: the plain product, rows scaled. -/
theorem G0_eq (x : S100000x128.Idx → EReal) (w : S128x64.Idx → EReal) :
    Region0.G0 x w dcol = scaleRows d (mm x w) := by
  funext i
  obtain ⟨p, q, rfl⟩ : ∃ (p : Fin 100000) (q : Fin 64), i = ix2 p q := ⟨i 0, i 1, eq_ix2 i⟩
  show (∑ k : Fin 128, x (ix2 p k) * w (ix2 k q)) * dcol (ix2 p (0 : Fin 1))
      = (∑ k : Fin 128, x (ix2 p k) * w (ix2 k q)) * d (ix1 p)
  rw [hd]

include hd in
/-- The second launch: the factored layer on the scaled features, times the next weights, rows scaled. -/
theorem G1_eq (A hs : SNC.Idx → EReal) (hA : A = Ideal.hostScatterAdd dS z ID (Host.gather dG hs IS))
    (brow : S1x64.Idx → EReal) (b : SC.Idx → EReal) (hb : ∀ k : Fin 64, brow (ix2 (0 : Fin 1) k) = b (ix1 k))
    (w : S64x64.Idx → EReal) :
    Region1.G1 A hs dcol brow w = scaleRows d (mm (kComb dG dS IS ID z d b hs) w) := by
  subst hA
  funext i
  obtain ⟨p, q, rfl⟩ : ∃ (p : Fin 100000) (q : Fin 64), i = ix2 p q := ⟨i 0, i 1, eq_ix2 i⟩
  show (∑ k : Fin 64, max (dcol (ix2 p (0 : Fin 1)) * (Ideal.hostScatterAdd dS z ID (Host.gather dG hs IS) (ix2 p k) + hs (ix2 p k)) + brow (ix2 (0 : Fin 1) k))
        (Ideal.ofBits .f32 0x00000000#32) * w (ix2 k q)) * dcol (ix2 p (0 : Fin 1))
      = (∑ k : Fin 64, max (d (ix1 p) * (Ideal.hostScatterAdd dS z ID (Host.gather dG hs IS) (ix2 p k) + hs (ix2 p k)) + b (ix1 k))
        (Ideal.ofBits .f32 0x00000000#32) * w (ix2 k q)) * d (ix1 p)
  rw [hd]
  refine congrArg (· * d (ix1 p)) (Finset.sum_congr rfl fun k _ => ?_)
  rw [hb]

include hd in
/-- The third launch and the last reshape: the factored layer on the scaled features, then the head. -/
theorem G2_eq (A hs : SNC.Idx → EReal) (hA : A = Ideal.hostScatterAdd dS z ID (Host.gather dG hs IS))
    (brow wlrow : S1x64.Idx → EReal) (bl11 : S1x1.Idx → EReal) (b : SC.Idx → EReal)
    (wl : S64x1.Idx → EReal) (bl : S1.Idx → EReal)
    (hb : ∀ k : Fin 64, brow (ix2 (0 : Fin 1) k) = b (ix1 k))
    (hwl : ∀ k : Fin 64, wlrow (ix2 (0 : Fin 1) k) = wl (ix2 k (0 : Fin 1)))
    (hbl : bl11 (ix2 (0 : Fin 1) (0 : Fin 1)) = bl (ix1 (0 : Fin 1))) :
    shapeCast S100000 (Region2.G2 A hs dcol brow wlrow bl11) shapeCasts_S100000x1_S100000
      = head (kComb dG dS IS ID z d b hs) wl bl := by
  subst hA
  funext i
  obtain ⟨p, rfl⟩ : ∃ p : Fin 100000, i = ix1 p := ⟨i 0, eq_ix1 i⟩
  rw [shapeCast_a1_a_apply]
  show (∑ k : Fin 64, max (dcol (ix2 p (0 : Fin 1)) * (Ideal.hostScatterAdd dS z ID (Host.gather dG hs IS) (ix2 p k) + hs (ix2 p k)) + brow (ix2 (0 : Fin 1) k))
        (Ideal.ofBits .f32 0x00000000#32) * wlrow (ix2 (0 : Fin 1) k)) + bl11 (ix2 (0 : Fin 1) (0 : Fin 1))
      = (∑ k : Fin 64, max (d (ix1 p) * (Ideal.hostScatterAdd dS z ID (Host.gather dG hs IS) (ix2 p k) + hs (ix2 p k)) + b (ix1 k))
        (Ideal.ofBits .f32 0x00000000#32) * wl (ix2 k (0 : Fin 1))) + bl (ix1 (0 : Fin 1))
  rw [hd, hbl]
  refine congrArg (· + bl (ix1 (0 : Fin 1))) (Finset.sum_congr rfl fun k _ => ?_)
  rw [hb, hwl]

end

/-! ## The program -/

/-- The scale column at row `p` is the inverse square root of the degree of `p`. -/
theorem dcol_apply (a1 : IVec S2x1600000 32) (p : Fin 100000) :
    dcolOf a1 (ix2 p (0 : Fin 1)) = Ideal.rsqrt (degOf (edgeRow1 a1) (ix1 p)) := by
  unfold dcolOf
  rw [Cert.Lib.shapeCast_a_a1_apply, hostRsqrt_apply]

/-- THE KERNEL PROGRAM'S VALUE is the factored network over its own index arrays and degree. -/
theorem outOf_eq (a0 : FVec Ideal S100000x128 .f32) (a1 : IVec S2x1600000 32) (a2 : FVec Ideal S128x64 .f32)
    (a3 : FVec Ideal S64 .f32) (a4 : FVec Ideal S64x64 .f32) (a5 : FVec Ideal S64 .f32) (a6 : FVec Ideal S64x1 .f32)
    (a7 : FVec Ideal S1 .f32) :
    outOf a0 a1 a2 a3 a4 a5 a6 a7
      = kerOut gather_S100000x64_S1600000x1_S1600000x64_1_0_n_n_0_1_164 scatter_S100000x64_S1600000x1_S1600000x64_1_0_0_1
          (srcIdx (edgeRow0 a1)) (dstIdx (edgeRow1 a1)) zeros64 (degOf (edgeRow1 a1)) a0 a2 a3 a4 a5 a6 a7 := by
  have hd := dcol_apply a1
  have e1 : hs1Of a0 a1 a2 = (scaleRows (fun j => Ideal.rsqrt (degOf (edgeRow1 a1) j)) (mm a0 a2)) :=
    G0_eq (fun j => Ideal.rsqrt (degOf (edgeRow1 a1) j)) (dcolOf a1) hd a0 a2
  have e2 : hs2Of a0 a1 a2 a3 a4 = (scaleRows (fun j => Ideal.rsqrt (degOf (edgeRow1 a1) j)) (mm (kComb gather_S100000x64_S1600000x1_S1600000x64_1_0_n_n_0_1_164 scatter_S100000x64_S1600000x1_S1600000x64_1_0_0_1 (srcIdx (edgeRow0 a1)) (dstIdx (edgeRow1 a1)) zeros64 (fun j => Ideal.rsqrt (degOf (edgeRow1 a1) j)) a3 (scaleRows (fun j => Ideal.rsqrt (degOf (edgeRow1 a1) j)) (mm a0 a2))) a4)) := by
    unfold hs2Of
    rw [e1]
    exact G1_eq gather_S100000x64_S1600000x1_S1600000x64_1_0_n_n_0_1_164 scatter_S100000x64_S1600000x1_S1600000x64_1_0_0_1 (srcIdx (edgeRow0 a1)) (dstIdx (edgeRow1 a1)) zeros64 (fun j => Ideal.rsqrt (degOf (edgeRow1 a1) j)) (dcolOf a1) hd
      (aggOf (scaleRows (fun j => Ideal.rsqrt (degOf (edgeRow1 a1) j)) (mm a0 a2)) (edgeRow0 a1) (edgeRow1 a1)) (scaleRows (fun j => Ideal.rsqrt (degOf (edgeRow1 a1) j)) (mm a0 a2)) (aggOf_eq (scaleRows (fun j => Ideal.rsqrt (degOf (edgeRow1 a1) j)) (mm a0 a2)) (edgeRow0 a1) (edgeRow1 a1))
      (shapeCast S1x64 a3 shapeCasts_S64_S1x64) a3 (fun k => shapeCast_a_1a_apply a3 shapeCasts_S64_S1x64 (0 : Fin 1) k) a4
  unfold outOf kerOut
  rw [e2]
  exact G2_eq gather_S100000x64_S1600000x1_S1600000x64_1_0_n_n_0_1_164 scatter_S100000x64_S1600000x1_S1600000x64_1_0_0_1 (srcIdx (edgeRow0 a1)) (dstIdx (edgeRow1 a1)) zeros64 (fun j => Ideal.rsqrt (degOf (edgeRow1 a1) j)) (dcolOf a1) hd
    (aggOf (scaleRows (fun j => Ideal.rsqrt (degOf (edgeRow1 a1) j)) (mm (kComb gather_S100000x64_S1600000x1_S1600000x64_1_0_n_n_0_1_164 scatter_S100000x64_S1600000x1_S1600000x64_1_0_0_1 (srcIdx (edgeRow0 a1)) (dstIdx (edgeRow1 a1)) zeros64 (fun j => Ideal.rsqrt (degOf (edgeRow1 a1) j)) a3 (scaleRows (fun j => Ideal.rsqrt (degOf (edgeRow1 a1) j)) (mm a0 a2))) a4)) (edgeRow0 a1) (edgeRow1 a1)) (scaleRows (fun j => Ideal.rsqrt (degOf (edgeRow1 a1) j)) (mm (kComb gather_S100000x64_S1600000x1_S1600000x64_1_0_n_n_0_1_164 scatter_S100000x64_S1600000x1_S1600000x64_1_0_0_1 (srcIdx (edgeRow0 a1)) (dstIdx (edgeRow1 a1)) zeros64 (fun j => Ideal.rsqrt (degOf (edgeRow1 a1) j)) a3 (scaleRows (fun j => Ideal.rsqrt (degOf (edgeRow1 a1) j)) (mm a0 a2))) a4)) (aggOf_eq (scaleRows (fun j => Ideal.rsqrt (degOf (edgeRow1 a1) j)) (mm (kComb gather_S100000x64_S1600000x1_S1600000x64_1_0_n_n_0_1_164 scatter_S100000x64_S1600000x1_S1600000x64_1_0_0_1 (srcIdx (edgeRow0 a1)) (dstIdx (edgeRow1 a1)) zeros64 (fun j => Ideal.rsqrt (degOf (edgeRow1 a1) j)) a3 (scaleRows (fun j => Ideal.rsqrt (degOf (edgeRow1 a1) j)) (mm a0 a2))) a4)) (edgeRow0 a1) (edgeRow1 a1))
    (shapeCast S1x64 a5 shapeCasts_S64_S1x64) (shapeCast S1x64 a6 shapeCasts_S64x1_S1x64) (shapeCast S1x1 a7 shapeCasts_S1_S1x1)
    a5 a6 a7
    (fun k => shapeCast_a_1a_apply a5 shapeCasts_S64_S1x64 (0 : Fin 1) k)
    (fun k => shapeCast_a1_1a_apply a6 shapeCasts_S64x1_S1x64 k)
    (shapeCast_a_1a_apply a7 shapeCasts_S1_S1x1 (0 : Fin 1) (0 : Fin 1))

end Cert.KernelIdeal.HostValue

end
-- ==== Proof.RefValue.lean ====
/-
  The printed reference program, read stage by stage, is the edge-weighted two-layer graph convolution with a
  linear head of the specification module: each dense product is the row-by-weight product `mm`, each layer is
  `rComb` (every gathered row weighted by `dinv[src] * dinv[dst]`, scatter-added, plus the self loop `h / deg`,
  plus the bias, `relu`), and the last product plus its bias is `head`.  The second layer recomputes the degree,
  the index arrays and the edge weights; those stages are the first layer's, term for term.
-/
import proofs.«139158_j28166395527551_2_alg».proof.Proof.Gen.ReferenceIdeal.Read
import proofs.«139158_j28166395527551_2_alg».proof.Proof.GcnSpec

set_option maxRecDepth 16384

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

local notation "dG" => gather_S100000x64_S1600000x1_S1600000x64_1_0_n_n_0_1_164
local notation "dg" => gather_S100000_S1600000x1_S1600000_n_0_n_n_0_1_1
local notation "dS" => scatter_S100000x64_S1600000x1_S1600000x64_1_0_0_1

/-! ## The dense products -/

/-- The first product: features times the first weight matrix. -/
theorem mm1_eq (x0 : (⟨S100000x128, .f32⟩ : BufTy).Contents (Elt Ideal)) (x2 : (⟨S128x64, .f32⟩ : BufTy).Contents (Elt Ideal)) :
    Read.val_main_v4 (F := Ideal) x0 x2 = Cert.Gcn.mm x0 x2 := by
  funext i
  rw [Read.val_main_v4_apply]
  unfold Cert.Gcn.mm
  refine Finset.sum_congr rfl (fun k _ => ?_)
  have hl : Read.lidx_main_v4 i k = ix2 (i 0) k := funext fun a => by match a with | ⟨0, _⟩ => rfl | ⟨1, _⟩ => rfl
  have hr : Read.ridx_main_v4 i k = ix2 k (i 1) := funext fun a => by match a with | ⟨0, _⟩ => rfl | ⟨1, _⟩ => rfl
  rw [hl, hr]
  rfl

/-- The second product: the first layer's output times the second weight matrix. -/
theorem mm2_eq (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) :
    Read.val_main_v50 (F := Ideal) x0 x1 x2 x3 x4 = Cert.Gcn.mm (Read.val_main_v49 (F := Ideal) x0 x1 x2 x3) x4 := by
  funext i
  rw [Read.val_main_v50_apply]
  unfold Cert.Gcn.mm
  refine Finset.sum_congr rfl (fun k _ => ?_)
  have hl : Read.lidx_main_v50 i k = ix2 (i 0) k := funext fun a => by match a with | ⟨0, _⟩ => rfl | ⟨1, _⟩ => rfl
  have hr : Read.ridx_main_v50 i k = ix2 k (i 1) := funext fun a => by match a with | ⟨0, _⟩ => rfl | ⟨1, _⟩ => rfl
  rw [hl, hr]
  rfl

/-! ## One layer -/

/-- The stages of one layer over a feature array `h` and a bias `b`, composed as the printed program composes them:
    gather the rows, weigh them, scatter-add them onto zero, add the self loop and the bias, take the positive part. -/
def layerR (x1 : (⟨S2x1600000, .i32⟩ : BufTy).Contents (Elt Ideal)) (b : (⟨S64, .f32⟩ : BufTy).Contents (Elt Ideal))
    (h : (⟨S100000x64, .f32⟩ : BufTy).Contents (Elt Ideal)) : (⟨S100000x64, .f32⟩ : BufTy).Contents (Elt Ideal) :=
  maximumf (F := Ideal) (φ := .f32)
    (addf (F := Ideal) (φ := .f32)
      (addf (F := Ideal) (φ := .f32)
        (Host.scatterAdd (F := Ideal) (φ := .f32) dS (Read.val_main_v37 (F := Ideal)) (Read.val_main_v38 (F := Ideal) x1)
          (mulf (F := Ideal) (φ := .f32) (Host.gather dG h (Read.val_main_v32 (F := Ideal) x1)) (Read.val_main_v35 (F := Ideal) x1)))
        (mulf (F := Ideal) (φ := .f32) h (Read.val_main_v43 (F := Ideal) x1)))
      (Read.val_main_v47 (F := Ideal) b))
    (Read.val_main_call0_v0 (F := Ideal))

/-- The first layer is that composition over the first product and the first bias. -/
theorem layer1_def (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal)) :
    Read.val_main_v49 (F := Ideal) x0 x1 x2 x3 = layerR x1 x3 (Read.val_main_v4 (F := Ideal) x0 x2) := rfl

/-- The second layer is the same composition over the second product and the second bias: its degree, index arrays,
    edge weights and constants are the first layer's, term for term. -/
theorem layer2_def (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) :
    Read.val_main_v95 (F := Ideal) x0 x1 x2 x3 x4 x5 = layerR x1 x5 (Read.val_main_v50 (F := Ideal) x0 x1 x2 x3 x4) := rfl

/-- The normalisation `dinv` is the reciprocal square root of the degree, entry by entry. -/
theorem dinv_def (x1 : (⟨S2x1600000, .i32⟩ : BufTy).Contents (Elt Ideal)) :
    Read.val_main_v11 (F := Ideal) x1 = fun j => Ideal.rsqrt (Read.val_main_v10 (F := Ideal) x1 j) := by
  funext j
  rw [Read.val_main_v11_apply]
  generalize Read.val_main_v10 (F := Ideal) x1 j = y
  exact Ideal.hostUnary_rsqrt_def y

/-- The scattered updates: every gathered feature row times `dinv[src] * dinv[dst]` of its edge. -/
theorem upd_eq (x1 : (⟨S2x1600000, .i32⟩ : BufTy).Contents (Elt Ideal)) (h : (⟨S100000x64, .f32⟩ : BufTy).Contents (Elt Ideal)) :
    mulf (F := Ideal) (φ := .f32) (Host.gather dG h (Read.val_main_v32 (F := Ideal) x1)) (Read.val_main_v35 (F := Ideal) x1)
      = fun u => Host.gather dG h (Read.val_main_v32 (F := Ideal) x1) u
          * (Host.gather dg (fun j => Ideal.rsqrt (Read.val_main_v10 (F := Ideal) x1 j)) (Read.val_main_v17 (F := Ideal) x1) (ix1 (u 0))
            * Host.gather dg (fun j => Ideal.rsqrt (Read.val_main_v10 (F := Ideal) x1 j)) (Read.val_main_v24 (F := Ideal) x1) (ix1 (u 0))) := by
  funext u
  have hu : Read.idx_main_v34 (Read.idx_main_v35 u) = ix1 (u 0) := funext fun a => by match a with | ⟨0, _⟩ => rfl
  rw [mulf_apply, Read.val_main_v35_apply, Read.val_main_v34_apply, Read.val_main_v26_apply, hu]
  unfold Read.val_main_v18 Read.val_main_v25
  rw [dinv_def, Ideal.mulf_def]
  rfl

/-- The layer's arithmetic at one entry: the scatter-add, the quotient and the literals of the printed program are
    the extended reals' exact sum, quotient and binary values. -/
theorem comb_at (IS IS' ID' ID : IVec S1600000x1 32) (z h : FVec Ideal S100000x64 .f32) (deg d : FVec Ideal S100000 .f32)
    (b : FVec Ideal S64 .f32) (i : S100000x64.Idx) :
    max (Host.scatterAdd (F := Ideal) (φ := .f32) dS z ID
            (fun u => Host.gather dG h IS u * (Host.gather dg d IS' (ix1 (u 0)) * Host.gather dg d ID' (ix1 (u 0)))) i
          + h i * FloatOps.hostDivf (FloatOps.ofBits FTy.f32 0x3F800000#32) (deg (ix1 (i 0)))
        + b (ix1 (i 1)))
      (FloatOps.ofBits FTy.f32 0x00000000#32)
    = Cert.Gcn.rComb dG dg dS IS IS' ID' ID z deg d b h i := rfl

/-- One layer, as the printed program composes it, is the edge-weighted layer of the specification. -/
theorem layerR_eq (x1 : (⟨S2x1600000, .i32⟩ : BufTy).Contents (Elt Ideal)) (b : (⟨S64, .f32⟩ : BufTy).Contents (Elt Ideal))
    (h : (⟨S100000x64, .f32⟩ : BufTy).Contents (Elt Ideal)) :
    layerR x1 b h = Cert.Gcn.rComb dG dg dS (Read.val_main_v32 (F := Ideal) x1) (Read.val_main_v17 (F := Ideal) x1)
      (Read.val_main_v24 (F := Ideal) x1) (Read.val_main_v38 (F := Ideal) x1) (Read.val_main_v37 (F := Ideal))
      (Read.val_main_v10 (F := Ideal) x1) (fun j => Ideal.rsqrt (Read.val_main_v10 (F := Ideal) x1 j)) b h := by
  funext i
  have h1 : Read.idx_main_v42 (Read.idx_main_v43 i) = ix1 (i 0) := funext fun a => by match a with | ⟨0, _⟩ => rfl
  have h2 : Read.idx_main_v46 (Read.idx_main_v47 i) = ix1 (i 1) := funext fun a => by match a with | ⟨0, _⟩ => rfl
  unfold layerR
  rw [maximumf_apply, addf_apply, addf_apply, mulf_apply]
  rw [Read.val_main_v43_apply, Read.val_main_v42_apply, Read.val_main_v41_apply, Read.val_main_v40_apply,
    Read.val_main_cst_8_apply, h1]
  rw [Read.val_main_v47_apply, Read.val_main_v46_apply, h2, Read.val_main_call0_v0_apply, Read.val_main_call0_cst_apply]
  rw [upd_eq x1 h]
  exact comb_at _ _ _ _ _ _ _ _ _ _

/-! ## The head, and the whole network -/

/-- The last product plus its bias, flattened to one value per node, is the linear head. -/
theorem head_eq (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x1, .f32⟩ : BufTy).Contents (Elt Ideal)) (x7 : (⟨S1, .f32⟩ : BufTy).Contents (Elt Ideal)) :
    Read.val_main_v100 (F := Ideal) x0 x1 x2 x3 x4 x5 x6 x7
      = Cert.Gcn.head (Read.val_main_v95 (F := Ideal) x0 x1 x2 x3 x4 x5) x6 x7 := by
  funext p
  have hb : Read.idx_main_v97 (Read.idx_main_v98 (Read.idx_main_v100 p)) = ix1 (0 : Fin 1) :=
    funext fun a => by match a with | ⟨0, _⟩ => rfl
  rw [Read.val_main_v100_apply, Read.val_main_v99_apply, Read.val_main_v96_apply, Read.val_main_v98_apply,
    Read.val_main_v97_apply, hb, Ideal.addf_def]
  unfold Cert.Gcn.head
  refine congrArg (· + x7 (ix1 (0 : Fin 1))) (Finset.sum_congr rfl (fun k _ => ?_))
  have hl : Read.lidx_main_v96 (Read.idx_main_v100 p) k = ix2 (p 0) k :=
    funext fun a => by match a with | ⟨0, _⟩ => exact Fin.ext (Nat.div_one _) | ⟨1, _⟩ => rfl
  have hr : Read.ridx_main_v96 (Read.idx_main_v100 p) k = ix2 k (0 : Fin 1) :=
    funext fun a => by match a with | ⟨0, _⟩ => rfl | ⟨1, _⟩ => rfl
  rw [hl, hr]
  rfl

/-- The printed reference program computes the edge-weighted network of the specification, over the index arrays, the
    zero array and the degree array that its own first stages build from the edge list. -/
theorem ref_eq (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x1, .f32⟩ : BufTy).Contents (Elt Ideal)) (x7 : (⟨S1, .f32⟩ : BufTy).Contents (Elt Ideal)) :
    Read.val_main_v100 (F := Ideal) x0 x1 x2 x3 x4 x5 x6 x7
      = Cert.Gcn.refOut gather_S100000x64_S1600000x1_S1600000x64_1_0_n_n_0_1_164 gather_S100000_S1600000x1_S1600000_n_0_n_n_0_1_1 scatter_S100000x64_S1600000x1_S1600000x64_1_0_0_1
          (Read.val_main_v32 (F := Ideal) x1) (Read.val_main_v17 (F := Ideal) x1) (Read.val_main_v24 (F := Ideal) x1) (Read.val_main_v38 (F := Ideal) x1) (Read.val_main_v37 (F := Ideal)) (Read.val_main_v10 (F := Ideal) x1) x0 x2 x3 x4 x5 x6 x7 := by
  rw [head_eq, layer2_def, layerR_eq, mm2_eq, layer1_def, layerR_eq, mm1_eq]
  rfl

end Cert.ReferenceIdeal.RefValue

end
-- ==== Proof.LibEdgeIndex.lean ====
/-
  GENERAL LEMMAS: the row gather and the row scatter of a graph computation, read at an entry.

  A graph computation with `N` nodes, `E` edges and `C` feature columns reads a node array at the edges' end points
  (`x[idx]` on rows: edge `e` takes row `idx[e]` of `x`) and adds edge rows back into node rows (a segment sum: edge row
  `e` is added into node row `idx[e]`). Both are index computations with dimension numbers; this file reads them at one
  entry. The gather of rows (and of a flat vector) is the operand at the start index, read signed and clamped into
  `[0, N − 1]`; an update row of the scatter lands on node row `p` only if its start index, read signed and NOT clamped,
  is `p`, and then on the same column. Last, two facts about a 32-bit word whose signed value is a node number below
  `2^31`: the "add `N` when negative" select leaves it alone, and clamping it into `[0, N − 1]` does nothing.
-/
import Idealize.ShloMosaic.Lib.ValueIdx
import Idealize.ShloMosaic.PureOps.Ideal

namespace Cert.Lib

open Idealize.ShloMosaic Idealize.ShloMosaic.ValueIdx

section RowsGather
variable {α : Type}

/-- The dimension numbers of a gather of whole rows: operand `[N, C]`, start indices `[E, 1]` (one row number per
    edge), result `[E, C]`; the row axis is collapsed and indexed, the column axis is the one offset axis with a full
    slice `C`. Their conditions `wf` are decided on a program's literal shapes. -/
abbrev rowsGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the operand's entry in column `k` of the row whose number is the start index
    `idx[e, 0]`, read as a signed integer and clamped into `[0, N − 1]`. -/
theorem rowsGather_apply {N E C w : Nat} (hN : 0 < N)
    (wf : GatherDims.WF ⟨2, ![N, C]⟩ ⟨2, ![E, 1]⟩ ⟨2, ![E, C]⟩ [1] [0] [] [0] [] 1 ![1, C])
    (a : (⟨2, ![N, C]⟩ : Shape).Idx → α) (I : IVec ⟨2, ![E, 1]⟩ w) (e : Fin E) (k : Fin C) :
    Host.gather (rowsGather N E C wf) a I (ix2 e k)
      = a (ix2 ⟨min (I (ix2 e (0 : Fin 1))).toInt.toNat (N - 1), by omega⟩ k) := by
  unfold Host.gather
  congr 1
  funext b
  refine Fin.ext ?_
  match b with
  | ⟨0, _⟩ =>
    show (rowsGather N E C wf).start (ix2 e k) I 0 + (rowsGather N E C wf).batchCoord (ix2 e k) 0
      + (rowsGather N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N E C wf).startIndexMap from List.mem_singleton.mpr rfl)]
    have hsi : (rowsGather N E C wf).siIdx (ix2 e k) ⟨List.idxOf (0 : Fin 2) (rowsGather N E C wf).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  | ⟨1, _⟩ =>
    show (rowsGather N E C wf).start (ix2 e k) I 1 + (rowsGather N E C wf).batchCoord (ix2 e k) 1
      + (rowsGather N E C wf).offCoord (ix2 e k) 1 = _
    rw [GatherDims.batchCoord_eq_zero _ _ _ List.not_mem_nil]
    unfold GatherDims.start
    rw [dif_neg (show ¬ (1 : Fin 2) ∈ (rowsGather N E C wf).startIndexMap from
      (by decide : ¬ (1 : Fin 2) ∈ [(0 : Fin 2)]))]
    simp only [Nat.add_zero, Nat.zero_add]
    rfl

end RowsGather

section VecGather
variable {α : Type}

/-- The dimension numbers of a gather of single entries of a flat vector: operand `[N]`, start indices `[E, 1]` (one
    position per edge), result `[E]`; the one operand axis is collapsed and indexed, and the result has no offset
    axis. Their conditions `wf` are decided on a program's literal shapes. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand's entry at the start index `idx[e, 0]`, read as a signed integer and
    clamped into `[0, N − 1]`. -/
theorem vecGather_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (I : IVec ⟨2, ![E, 1]⟩ w) (e : Fin E) :
    Host.gather (vecGather N E wf) v I (ix1 e)
      = v (ix1 ⟨min (I (ix2 e (0 : Fin 1))).toInt.toNat (N - 1), by omega⟩) := by
  unfold Host.gather
  congr 1
  funext b
  obtain rfl : b = 0 := Subsingleton.elim _ _
  refine Fin.ext ?_
  show (vecGather N E wf).start (ix1 e) I 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext c; refine Fin.ext ?_
    match c with
    | ⟨0, _⟩ => rfl
    | ⟨1, _⟩ => rfl
  rw [hsi]
  rfl

end VecGather

section RowsScatter

/-- The dimension numbers of a scatter of whole rows: operand `[N, C]`, scatter indices `[E, 1]` (one row number per
    edge), updates `[E, C]`; the row axis is the inserted, indexed one, the column axis is the one window axis. Their
    conditions `wf` are decided on a program's literal shapes. -/
abbrev rowsScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- WHERE AN UPDATE ROW LANDS: the update entry `(e, k')` lands on the operand entry `(p, k)` only when the columns
    agree and the start index `idx[e, 0]`, read as a signed integer and NOT clamped, is the row number `p` itself. -/
theorem rowsScatter_lands {N E C w : Nat}
    (wf : ScatterDims.WF ⟨2, ![N, C]⟩ ⟨2, ![E, 1]⟩ ⟨2, ![E, C]⟩ [1] [0] [0] 1)
    (I : IVec ⟨2, ![E, 1]⟩ w) (e : Fin E) (k' : Fin C) (p : Fin N) (k : Fin C)
    (h : (rowsScatter N E C wf).resultIdx? (ix2 e k') I = some (ix2 p k)) :
    k' = k ∧ (I (ix2 e (0 : Fin 1))).toInt = (p.val : Int) := by
  have hsi : (rowsScatter N E C wf).siIdx (ix2 e k') ⟨List.idxOf (0 : Fin 2) (rowsScatter N E C wf).scatterDimsToOperandDims,
      List.idxOf_lt_length_iff.2 (List.mem_singleton.mpr rfl)⟩ = ix2 e (0 : Fin 1) := by
    funext c; refine Fin.ext ?_
    match c with
    | ⟨0, _⟩ => rfl
    | ⟨1, _⟩ => rfl
  have hs0 : (rowsScatter N E C wf).start (ix2 e k') I 0 = (I (ix2 e (0 : Fin 1))).toInt := by
    unfold ScatterDims.start
    rw [dif_pos (show (0 : Fin 2) ∈ (rowsScatter N E C wf).scatterDimsToOperandDims from List.mem_singleton.mpr rfl), hsi]
  have hs1 : (rowsScatter N E C wf).start (ix2 e k') I 1 = 0 := by
    unfold ScatterDims.start
    rw [dif_neg (show ¬ (1 : Fin 2) ∈ (rowsScatter N E C wf).scatterDimsToOperandDims from
      (by decide : ¬ (1 : Fin 2) ∈ [(0 : Fin 2)]))]
  have hw0 : (rowsScatter N E C wf).window (ix2 e k') 0 = 0 := rfl
  have hw1 : (rowsScatter N E C wf).window (ix2 e k') 1 = k'.val := rfl
  unfold ScatterDims.resultIdx? at h
  split at h
  · rename_i hall
    have hfun := Option.some.inj h
    have h0 := congrArg Fin.val (congrFun hfun 0)
    have h1 := congrArg Fin.val (congrFun hfun 1)
    have hb0 := hall 0
    simp only [hs0, hw0] at h0 hb0
    simp only [hs1, hw1] at h1
    refine ⟨Fin.ext ?_, ?_⟩
    · change k'.val = k.val
      change ((0 : Int) + (k'.val : Int)).toNat = k.val at h1
      omega
    · change ((I (ix2 e (0 : Fin 1))).toInt + ((0 : Nat) : Int)).toNat = p.val at h0
      omega
  · exact absurd h (by simp)

end RowsScatter

section Words

/-- A vector integer comparison at an index compares the elements. -/
theorem cmpi_apply {s : Shape} {w : Nat} (c : CmpIPredicate) (a b : IVec s w) (i : s.Idx) :
    cmpi c a b i = IntOp.cmpi c (a i) (b i) := rfl

/-- THE NEGATIVE-INDEX WRAP DOES NOTHING TO A NODE NUMBER: a 32-bit word `x` whose signed value is a natural number
    `p` is not below zero, so the select "if `x < 0` (signed) then `y` else `x`" is `x`, whatever `y` is. Stated on one
    element: a vector comparison read at an index is this comparison of the elements (`cmpi_apply` above), and a vector
    select read at an index is this select of the elements (`select_apply`). -/
theorem select_slt_zero_of_toInt {x y : BitVec 32} {p : Nat} (hx : x.toInt = (p : Int)) :
    Scalar.select (IntOp.cmpi .slt x 0#32) y x = x := by
  have hslt : x.slt 0#32 = false := by
    rw [BitVec.slt, hx]
    simp
  show (if BitVec.ofBool (x.slt 0#32) = 1 then y else x) = x
  rw [hslt]
  rfl

/-- CLAMPING A NODE NUMBER DOES NOTHING: a word whose signed value is a natural number `p` below `N`, read signed and
    clamped into `[0, N − 1]`, is `p`. -/
theorem clamp_of_toInt {w : Nat} {x : BitVec w} {p N : Nat} (hp : p < N) (hx : x.toInt = (p : Int)) :
    min x.toInt.toNat (N - 1) = p := by
  rw [hx, Int.toNat_natCast]
  omega

/-- A natural number below `2^31`, written as a 32-bit word, has itself as its signed value (a node number below
    `N ≤ 2^31` is one). -/
theorem toInt_ofNat_of_lt {p : Nat} (hp : p < 2 ^ 31) : (BitVec.ofNat 32 p).toInt = (p : Int) := by
  have h2 : 2 * (BitVec.ofNat 32 p).toNat < 2 ^ 32 := by
    rw [BitVec.toNat_ofNat]
    have := Nat.mod_le p (2 ^ 32)
    omega
  rw [BitVec.toInt_eq_toNat_of_lt h2, BitVec.toNat_ofNat, Nat.mod_eq_of_lt (by omega)]

end Words

end Cert.Lib
-- ==== Proof.GcnBridge.lean ====
/-
  The algebra that joins the two forms of a two-layer graph convolution: the factored form, which scales the
  features by `dinv = 1 / √deg` before the edges are followed and once more after, and the edge-weighted form,
  which weighs every edge by `dinv[src] * dinv[dst]` and adds the self loop `h p / deg p`. Everything is over the
  extended reals and nothing is assumed finite about the features: the only multiplier that has to go inside a sum is
  `dinv p`, a nonnegative finite real, and a nonnegative finite extended real distributes over sums.
-/
import Idealize.ShloMosaic.Lib.ValueIdx
import Idealize.ShloMosaic.PureOps.Ideal
import Idealize.ShloMosaic.PureOps.Ideal.Laws
import proofs.«139158_j28166395527551_2_alg».proof.Proof.GcnSpec
import proofs.«139158_j28166395527551_2_alg».proof.Proof.LibEdgeIndex

noncomputable section

open scoped BigOperators

namespace Cert.Gcn

open Idealize.ShloMosaic Idealize.ShloMosaic.ValueIdx

/-! ## Extended reals: a nonnegative finite multiplier goes inside a finite sum -/

/-- A nonnegative extended real other than `⊤` distributes over a finite sum. -/
theorem mul_sum_of_nonneg_of_ne_top {ι : Type*} (s : Finset ι) (f : ι → EReal) {c : EReal} (h0 : 0 ≤ c) (ht : c ≠ ⊤) :
    c * ∑ u ∈ s, f u = ∑ u ∈ s, c * f u := by
  classical
  induction s using Finset.induction_on with
  | empty => simp
  | insert a s ha ih =>
    rw [Finset.sum_insert ha, Finset.sum_insert ha, EReal.left_distrib_of_nonneg_of_ne_top h0 ht, ih]

/-! ## The constants, and the reciprocal square root of a positive real -/

/-- The pattern of `1.0` denotes `1`. -/
theorem ofBits_one_f32 : Ideal.ofBits .f32 0x3F800000#32 = 1 := by
  simp [Ideal.ofBits, Ideal.ieee, -EReal.coe_mul]; norm_num

/-- The reciprocal square root of a positive real `r` is the real `(√r)⁻¹`. -/
theorem rsqrt_coe_pos {r : ℝ} (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- Its square is `1 / r`, as the division of the extended reals computes it. -/
theorem rsqrt_mul_self {r : ℝ} (hr : 0 < r) :
    Ideal.rsqrt (r : EReal) * Ideal.rsqrt (r : EReal) = Ideal.div (Ideal.ofBits .f32 0x3F800000#32) (r : EReal) := by
  rw [rsqrt_coe_pos hr, Ideal.div_coe hr.ne', ofBits_one_f32, one_mul, ← EReal.coe_mul]
  congr 1
  rw [← mul_inv, Real.mul_self_sqrt hr.le, one_div]

/-- It is nonnegative … -/
theorem rsqrt_nonneg {r : ℝ} (hr : 0 < r) : 0 ≤ Ideal.rsqrt (r : EReal) := by
  rw [rsqrt_coe_pos hr]
  exact EReal.coe_nonneg.mpr (inv_nonneg.mpr (Real.sqrt_nonneg r))

/-- … and finite. -/
theorem rsqrt_ne_top {r : ℝ} (hr : 0 < r) : Ideal.rsqrt (r : EReal) ≠ ⊤ := by
  rw [rsqrt_coe_pos hr]
  exact EReal.coe_ne_top _

/-! ## One layer: the factored form is the edge-weighted form -/

section Bridge
variable (wfG : GatherDims.WF ⟨2, ![100000, 64]⟩ ⟨2, ![1600000, 1]⟩ ⟨2, ![1600000, 64]⟩ [1] [0] [] [0] [] 1 ![1, 64])
  (wfg : GatherDims.WF ⟨1, ![100000]⟩ ⟨2, ![1600000, 1]⟩ ⟨1, ![1600000]⟩ [] [0] [] [0] [] 1 ![1])
  (wfS : ScatterDims.WF ⟨2, ![100000, 64]⟩ ⟨2, ![1600000, 1]⟩ ⟨2, ![1600000, 64]⟩ [1] [0] [0] 1)
  (IS ID' ID : IVec SE1 32) (z : SNC.Idx → EReal) (deg : SN.Idx → EReal)

/-- ONE LAYER. With `dinv p = 1 / √(deg p)` for positive real degrees, a zero scatter operand, and the two
    destination index arrays naming the same node wherever an update lands (`hlink`: when the scatter's index, read
    signed, is the node `p`, the gather's index, read signed and clamped, is `p` too), the factored layer on the scaled
    features `h * dinv` is the edge-weighted layer on `h`. At entry `(p, q)`, with `c = dinv p`:
    `c * (Σ_u h[src u] * dinv[src u] + h (p, q) * c) = Σ_u h[src u] * (dinv[src u] * c) + h (p, q) * (1 / deg p)`,
    since `c` is nonnegative and finite (so it goes inside the sum) and `c * c = 1 / deg p`. -/
theorem layer_eq (hdeg : ∀ j, ∃ r : ℝ, 0 < r ∧ deg j = (r : EReal))
    (hlink : ∀ (e : Fin 1600000) (p : Fin 100000), (ID (ix2 e (0 : Fin 1))).toInt = (p.val : Int) →
      min (ID' (ix2 e (0 : Fin 1))).toInt.toNat (100000 - 1) = p.val)
    (hz : ∀ i, z i = Ideal.ofBits .f32 0x00000000#32) (b : SC.Idx → EReal) (h : SNC.Idx → EReal) :
    kComb (Cert.Lib.rowsGather 100000 1600000 64 wfG) (Cert.Lib.rowsScatter 100000 1600000 64 wfS) IS ID z
        (fun j => Ideal.rsqrt (deg j)) b (scaleRows (fun j => Ideal.rsqrt (deg j)) h)
      = rComb (Cert.Lib.rowsGather 100000 1600000 64 wfG) (Cert.Lib.vecGather 100000 1600000 wfg)
        (Cert.Lib.rowsScatter 100000 1600000 64 wfS) IS IS ID' ID z deg (fun j => Ideal.rsqrt (deg j)) b h := by
  funext i
  obtain ⟨p, q, rfl⟩ : ∃ (p : Fin 100000) (q : Fin 64), i = ix2 p q := ⟨i 0, i 1, eq_ix2 i⟩
  obtain ⟨r, hr, hdr⟩ := hdeg (ix1 p)
  have hc0 : 0 ≤ Ideal.rsqrt (deg (ix1 p)) := by rw [hdr]; exact rsqrt_nonneg hr
  have hct : Ideal.rsqrt (deg (ix1 p)) ≠ ⊤ := by rw [hdr]; exact rsqrt_ne_top hr
  have hcc : Ideal.rsqrt (deg (ix1 p)) * Ideal.rsqrt (deg (ix1 p))
      = Ideal.div (Ideal.ofBits .f32 0x3F800000#32) (deg (ix1 p)) := by rw [hdr]; exact rsqrt_mul_self hr
  have key : Ideal.rsqrt (deg (ix1 p)) *
        (Ideal.hostScatterAdd (Cert.Lib.rowsScatter 100000 1600000 64 wfS) z ID
            (Host.gather (Cert.Lib.rowsGather 100000 1600000 64 wfG) (scaleRows (fun j => Ideal.rsqrt (deg j)) h) IS) (ix2 p q)
          + h (ix2 p q) * Ideal.rsqrt (deg (ix1 p)))
      = Ideal.hostScatterAdd (Cert.Lib.rowsScatter 100000 1600000 64 wfS) z ID
            (fun u => Host.gather (Cert.Lib.rowsGather 100000 1600000 64 wfG) h IS u
              * (Host.gather (Cert.Lib.vecGather 100000 1600000 wfg) (fun j => Ideal.rsqrt (deg j)) IS (ix1 (u 0))
                * Host.gather (Cert.Lib.vecGather 100000 1600000 wfg) (fun j => Ideal.rsqrt (deg j)) ID' (ix1 (u 0)))) (ix2 p q)
          + h (ix2 p q) * Ideal.div (Ideal.ofBits .f32 0x3F800000#32) (deg (ix1 p)) := by
    unfold Ideal.hostScatterAdd
    rw [hz, Ideal.ofBits_zero_f32, zero_add, zero_add,
      EReal.left_distrib_of_nonneg_of_ne_top hc0 hct, mul_sum_of_nonneg_of_ne_top _ _ hc0 hct]
    refine congrArg₂ (· + ·) ?_ ?_
    · refine Finset.sum_congr rfl fun u hu => ?_
      obtain ⟨e, k', rfl⟩ : ∃ (e : Fin 1600000) (k' : Fin 64), u = ix2 e k' := ⟨u 0, u 1, eq_ix2 u⟩
      obtain ⟨rfl, hID⟩ := Cert.Lib.rowsScatter_lands wfS ID e k' p q (Finset.mem_filter.mp hu).2
      have hm : (⟨min (ID' (ix2 e (0 : Fin 1))).toInt.toNat (100000 - 1), by omega⟩ : Fin 100000) = p :=
        Fin.ext (hlink e p hID)
      show Ideal.rsqrt (deg (ix1 p)) *
          Host.gather (Cert.Lib.rowsGather 100000 1600000 64 wfG) (scaleRows (fun j => Ideal.rsqrt (deg j)) h) IS (ix2 e k')
        = Host.gather (Cert.Lib.rowsGather 100000 1600000 64 wfG) h IS (ix2 e k')
          * (Host.gather (Cert.Lib.vecGather 100000 1600000 wfg) (fun j => Ideal.rsqrt (deg j)) IS (ix1 e)
            * Host.gather (Cert.Lib.vecGather 100000 1600000 wfg) (fun j => Ideal.rsqrt (deg j)) ID' (ix1 e))
      rw [Cert.Lib.rowsGather_apply (by norm_num) wfG, Cert.Lib.rowsGather_apply (by norm_num) wfG,
        Cert.Lib.vecGather_apply (by norm_num) wfg, Cert.Lib.vecGather_apply (by norm_num) wfg, hm]
      show Ideal.rsqrt (deg (ix1 p)) *
          (h (ix2 ⟨min (IS (ix2 e (0 : Fin 1))).toInt.toNat (100000 - 1), by omega⟩ k')
            * Ideal.rsqrt (deg (ix1 ⟨min (IS (ix2 e (0 : Fin 1))).toInt.toNat (100000 - 1), by omega⟩)))
        = h (ix2 ⟨min (IS (ix2 e (0 : Fin 1))).toInt.toNat (100000 - 1), by omega⟩ k')
          * (Ideal.rsqrt (deg (ix1 ⟨min (IS (ix2 e (0 : Fin 1))).toInt.toNat (100000 - 1), by omega⟩))
            * Ideal.rsqrt (deg (ix1 p)))
      rw [mul_comm (Ideal.rsqrt (deg (ix1 p))), mul_assoc]
    · rw [mul_left_comm, hcc]
  show max (Ideal.rsqrt (deg (ix1 p)) *
        (Ideal.hostScatterAdd (Cert.Lib.rowsScatter 100000 1600000 64 wfS) z ID
            (Host.gather (Cert.Lib.rowsGather 100000 1600000 64 wfG) (scaleRows (fun j => Ideal.rsqrt (deg j)) h) IS) (ix2 p q)
          + h (ix2 p q) * Ideal.rsqrt (deg (ix1 p))) + b (ix1 q)) _ = max (_ + b (ix1 q)) _
  rw [key]

/-- THE TWO NETWORKS AGREE: under the same hypotheses, layer by layer. -/
theorem kerOut_eq_refOut (hdeg : ∀ j, ∃ r : ℝ, 0 < r ∧ deg j = (r : EReal))
    (hlink : ∀ (e : Fin 1600000) (p : Fin 100000), (ID (ix2 e (0 : Fin 1))).toInt = (p.val : Int) →
      min (ID' (ix2 e (0 : Fin 1))).toInt.toNat (100000 - 1) = p.val)
    (hz : ∀ i, z i = Ideal.ofBits .f32 0x00000000#32)
    (x : (⟨2, ![100000, 128]⟩ : Shape).Idx → EReal)
    (w1 : (⟨2, ![128, 64]⟩ : Shape).Idx → EReal) (b1 : SC.Idx → EReal) (w2 : (⟨2, ![64, 64]⟩ : Shape).Idx → EReal)
    (b2 : SC.Idx → EReal) (wl : (⟨2, ![64, 1]⟩ : Shape).Idx → EReal) (bl : (⟨1, ![1]⟩ : Shape).Idx → EReal) :
    kerOut (Cert.Lib.rowsGather 100000 1600000 64 wfG) (Cert.Lib.rowsScatter 100000 1600000 64 wfS) IS ID z deg
        x w1 b1 w2 b2 wl bl
      = refOut (Cert.Lib.rowsGather 100000 1600000 64 wfG) (Cert.Lib.vecGather 100000 1600000 wfg)
        (Cert.Lib.rowsScatter 100000 1600000 64 wfS) IS IS ID' ID z deg x w1 b1 w2 b2 wl bl := by
  unfold kerOut refOut
  dsimp only
  rw [layer_eq wfG wfg wfS IS ID' ID z deg hdeg hlink hz, layer_eq wfG wfg wfS IS ID' ID z deg hdeg hlink hz]

end Bridge

/-! ## The degree: a count of edges plus one is a positive real -/

/-- A sum of ones over a finite set, plus one, is a positive real: the number of terms plus one. -/
theorem count_add_one {ι : Type*} (S : Finset ι) : ∃ r : ℝ, 0 < r ∧ (∑ _u ∈ S, (1 : EReal)) + 1 = (r : EReal) := by
  have hn : ∀ n : ℕ, n • (1 : EReal) = ((n : ℝ) : EReal) := by
    intro n
    induction n with
    | zero => simp
    | succ n ih => rw [succ_nsmul, ih]; push_cast; rfl
  refine ⟨(S.card : ℝ) + 1, by positivity, ?_⟩
  rw [Finset.sum_const, hn, EReal.coe_add, EReal.coe_one]

/-- THE DEGREE IS A POSITIVE REAL: ones scattered (added) onto zeros, plus one, is at every node the number of
    updates that land there plus one. -/
theorem deg_pos (dsv : ScatterDims SN SE1 SE) (I : IVec SE1 32) (zs os' : SN.Idx → EReal) (os : SE.Idx → EReal)
    (hzs : ∀ j, zs j = Ideal.ofBits .f32 0x00000000#32) (hos : ∀ u, os u = Ideal.ofBits .f32 0x3F800000#32)
    (hos' : ∀ j, os' j = Ideal.ofBits .f32 0x3F800000#32) (j : SN.Idx) :
    ∃ r : ℝ, 0 < r ∧ Ideal.hostScatterAdd dsv zs I os j + os' j = (r : EReal) := by
  unfold Ideal.hostScatterAdd
  rw [hzs, hos', Ideal.ofBits_zero_f32, zero_add, ofBits_one_f32,
    Finset.sum_congr rfl fun u _ => (hos u).trans ofBits_one_f32]
  exact count_add_one _

end Cert.Gcn

end
-- ==== Proof.RefFacts.lean ====
/-
  Facts about the edge-weighted program's index arrays and its degree vector, as functions of the edge list: what
  makes the one-layer identity between the factored and the edge-weighted graph convolution apply to this program.
  The destination column is used twice, once raw as the scatter's index and once with negative entries wrapped as
  the gather's index: wherever an update lands on a node the two name the same node. The degree is a count of
  edges plus one, a positive real. The scatter's operand is zero. The source column is wrapped twice by the same
  operations. The dimension records the program prints are the general row gather, vector gather and row scatter.
-/
import proofs.«139158_j28166395527551_2_alg».proof.Proof.Gen.ReferenceIdeal.Read
import proofs.«139158_j28166395527551_2_alg».proof.Proof.LibEdgeIndex
import proofs.«139158_j28166395527551_2_alg».proof.Proof.GcnBridge

noncomputable section

namespace Cert.ReferenceIdeal.RefFacts

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

/-! ## The destination column, raw and wrapped -/

/-- WHERE AN UPDATE LANDS, THE TWO DESTINATION ARRAYS AGREE: if the raw destination of edge `e`, read as a signed
    integer, is the node number `p`, then it is not negative, so the wrap "add `100000` when negative" leaves it alone,
    and the wrapped destination, read signed and clamped into `[0, 99999]`, is `p` as well. -/
theorem link (x1 : (⟨S2x1600000, .i32⟩ : BufTy).Contents (Elt Ideal)) :
    ∀ (e : Fin 1600000) (p : Fin 100000),
      ((val_main_v38 (F := Ideal) x1) (ix2 e (0 : Fin 1))).toInt = (p.val : Int) →
      min ((val_main_v24 (F := Ideal) x1) (ix2 e (0 : Fin 1))).toInt.toNat (100000 - 1) = p.val := by
  intro e p h
  rw [val_main_v38_apply] at h
  have h24 : val_main_v24 (F := Ideal) x1 (ix2 e (0 : Fin 1))
      = val_main_v3 (F := Ideal) x1 (idx_main_v38 (ix2 e (0 : Fin 1))) := by
    rw [val_main_v24_apply, val_main_v23_apply, val_main_v20_apply, val_main_v19_apply, val_main_c_3_apply]
    exact Cert.Lib.select_slt_zero_of_toInt h
  rw [h24]
  exact Cert.Lib.clamp_of_toInt p.isLt h

/-! ## The scatter's operand, and the source column -/

/-- The scatter's operand is the zero array. -/
theorem zero_init : ∀ i, (val_main_v37 (F := Ideal)) i = Ideal.ofBits .f32 0x00000000#32 := by
  intro i
  rw [val_main_v37_apply, val_main_cst_7_apply]
  rfl

/-- The wrapped source column is computed twice by the same operations on the same edge list: the two arrays are
    one. -/
theorem src_twice (x1 : (⟨S2x1600000, .i32⟩ : BufTy).Contents (Elt Ideal)) :
    val_main_v17 (F := Ideal) x1 = val_main_v32 (F := Ideal) x1 := rfl

/-! ## The printed dimension records are the general ones -/

/-- The printed row gather's dimension numbers are the general row gather's at `100000` rows, `1600000` indices and
    `64` columns. -/
theorem dG_eq : gather_S100000x64_S1600000x1_S1600000x64_1_0_n_n_0_1_164
    = Cert.Lib.rowsGather 100000 1600000 64 Facts₀.gather_S100000x64_S1600000x1_S1600000x64_1_0_n_n_0_1_164_wf := rfl

/-- The printed vector gather's dimension numbers are the general vector gather's at `100000` entries and `1600000`
    indices. -/
theorem dg_eq : gather_S100000_S1600000x1_S1600000_n_0_n_n_0_1_1
    = Cert.Lib.vecGather 100000 1600000 Facts₀.gather_S100000_S1600000x1_S1600000_n_0_n_n_0_1_1_wf := rfl

/-- The printed row scatter's dimension numbers are the general row scatter's at `100000` rows, `1600000` indices and
    `64` columns. -/
theorem dS_eq : scatter_S100000x64_S1600000x1_S1600000x64_1_0_0_1
    = Cert.Lib.rowsScatter 100000 1600000 64 Facts₀.scatter_S100000x64_S1600000x1_S1600000x64_1_0_0_1_wf := rfl

/-! ## The degree -/

/-- The degree vector at a node is the scatter-add of ones onto zeros along the raw destination column, read there,
    plus one. -/
theorem deg_apply (x1 : (⟨S2x1600000, .i32⟩ : BufTy).Contents (Elt Ideal)) (j : S100000.Idx) :
    val_main_v10 (F := Ideal) x1 j
      = Ideal.hostScatterAdd scatter_S100000_S1600000x1_S1600000_n_0_0_1 (val_main_v6 (F := Ideal))
          (val_main_v7 (F := Ideal) x1) (val_main_v5 (F := Ideal)) j + val_main_v9 (F := Ideal) j := by
  have h8 : val_main_v8 (F := Ideal) x1
      = Ideal.hostScatterAdd scatter_S100000_S1600000x1_S1600000_n_0_0_1 (val_main_v6 (F := Ideal))
          (val_main_v7 (F := Ideal) x1) (val_main_v5 (F := Ideal)) := rfl
  unfold val_main_v10
  rw [ValueIdx.addf_apply, h8]

/-- THE DEGREE IS A POSITIVE REAL at every node: ones added onto zeros along the raw destination column, plus one —
    the number of edges into the node plus one. -/
theorem deg_real (x1 : (⟨S2x1600000, .i32⟩ : BufTy).Contents (Elt Ideal)) :
    ∀ j, ∃ r : ℝ, 0 < r ∧ (val_main_v10 (F := Ideal) x1) j = (r : EReal) := by
  intro j
  have hz : ∀ j, val_main_v6 (F := Ideal) j = Ideal.ofBits .f32 0x00000000#32 := fun j => by
    rw [val_main_v6_apply, val_main_cst_0_apply]; rfl
  have ho : ∀ u, val_main_v5 (F := Ideal) u = Ideal.ofBits .f32 0x3F800000#32 := fun u => by
    rw [val_main_v5_apply, val_main_cst_apply]; rfl
  have ho' : ∀ j, val_main_v9 (F := Ideal) j = Ideal.ofBits .f32 0x3F800000#32 := fun j => by
    rw [val_main_v9_apply, val_main_cst_1_apply]; rfl
  rw [deg_apply]
  exact Cert.Gcn.deg_pos scatter_S100000_S1600000x1_S1600000_n_0_0_1 (val_main_v7 (F := Ideal) x1)
    (val_main_v6 (F := Ideal)) (val_main_v9 (F := Ideal)) (val_main_v5 (F := Ideal)) hz ho ho' j

/-! ## The instance -/

/-- THE TWO NETWORKS ON THIS PROGRAM'S ARRAYS: with the program's own index arrays, zero operand and degree vector,
    the edge-weighted network is the factored network, for every feature matrix, weights and biases. -/
theorem refOut_eq_kerOut (x0 : (⟨S100000x128, .f32⟩ : BufTy).Contents (Elt Ideal))
    (x1 : (⟨S2x1600000, .i32⟩ : BufTy).Contents (Elt Ideal)) (x2 : (⟨S128x64, .f32⟩ : BufTy).Contents (Elt Ideal))
    (x3 : (⟨S64, .f32⟩ : BufTy).Contents (Elt Ideal)) (x4 : (⟨S64x64, .f32⟩ : BufTy).Contents (Elt Ideal))
    (x5 : (⟨S64, .f32⟩ : BufTy).Contents (Elt Ideal)) (x6 : (⟨S64x1, .f32⟩ : BufTy).Contents (Elt Ideal))
    (x7 : (⟨S1, .f32⟩ : BufTy).Contents (Elt Ideal)) :
    Cert.Gcn.refOut gather_S100000x64_S1600000x1_S1600000x64_1_0_n_n_0_1_164
        gather_S100000_S1600000x1_S1600000_n_0_n_n_0_1_1 scatter_S100000x64_S1600000x1_S1600000x64_1_0_0_1
        (val_main_v32 (F := Ideal) x1) (val_main_v17 (F := Ideal) x1) (val_main_v24 (F := Ideal) x1)
        (val_main_v38 (F := Ideal) x1) (val_main_v37 (F := Ideal)) (val_main_v10 (F := Ideal) x1) x0 x2 x3 x4 x5 x6 x7
      = Cert.Gcn.kerOut gather_S100000x64_S1600000x1_S1600000x64_1_0_n_n_0_1_164
        scatter_S100000x64_S1600000x1_S1600000x64_1_0_0_1
        (val_main_v32 (F := Ideal) x1) (val_main_v38 (F := Ideal) x1) (val_main_v37 (F := Ideal))
        (val_main_v10 (F := Ideal) x1) x0 x2 x3 x4 x5 x6 x7 := by
  rw [dG_eq, dg_eq, dS_eq, src_twice x1]
  exact (Cert.Gcn.kerOut_eq_refOut _ _ _ (val_main_v32 (F := Ideal) x1) (val_main_v24 (F := Ideal) x1)
    (val_main_v38 (F := Ideal) x1) (val_main_v37 (F := Ideal)) (val_main_v10 (F := Ideal) x1)
    (deg_real x1) (link x1) zero_init x0 x2 x3 x4 x5 x6 x7).symm

end Cert.ReferenceIdeal.RefFacts

end
-- ==== Proof.lean ====
/-
  A two-layer graph convolution with a linear head, computed two ways over the same edge list.

  Both programs count, for every node `p`, the edges arriving at `p`, add one, and take `d p = deg(p)^(-1/2)`.
  The reference weighs every edge `s → p` by `d s * d p`, sums the weighted source rows of `h = x W` onto `p`, and adds
  the self loop `h p / deg p` and the bias.  The kernel program scales the rows once before the edges are followed,
  `hs = h * d`, sums the source rows of `hs` onto `p` unweighted, adds `hs p`, and scales the sum by `d p`: the same
  number, because `d p` is a nonnegative finite real (so it distributes over any sum of extended reals, no
  finiteness of the features needed), an edge that lands on `p` has destination `p`, and `d p * d p = 1 / deg p`.
  The dense parts (the products with `W1`, `W2`, the head's weights, the rectifier) are three kernel launches over row
  blocks on one side and whole-array operations on the other; at the ideal values a format change is the identity and
  a blocked product is the product.

  The kernel program's result is read off its run segment by segment (each launch's output array as one function of
  its inputs, the host stretches as their operations' values); the reference's off its run one operation at a time; the
  two whole-array forms are joined by the law above.
-/
import proofs.«139158_j28166395527551_2_alg».proof.Defs
import proofs.«139158_j28166395527551_2_alg».proof.Proof.Gen.Kernel
import proofs.«139158_j28166395527551_2_alg».proof.Proof.Gen.Kernel.Frame
import proofs.«139158_j28166395527551_2_alg».proof.Proof.Gen.KernelIdeal
import proofs.«139158_j28166395527551_2_alg».proof.Proof.Gen.KernelIdeal.Frame
import proofs.«139158_j28166395527551_2_alg».proof.Proof.Gen.ReferenceIdeal
import proofs.«139158_j28166395527551_2_alg».proof.Proof.Gen.Pre_finite_inputs
import proofs.«139158_j28166395527551_2_alg».proof.Proof.Gen.ReferenceIdeal.Run
import proofs.«139158_j28166395527551_2_alg».proof.Proof.Gen.ReferenceIdeal.Read
import proofs.«139158_j28166395527551_2_alg».proof.Proof.KRun
import proofs.«139158_j28166395527551_2_alg».proof.Proof.KSpecEq
import proofs.«139158_j28166395527551_2_alg».proof.Proof.RefValue
import proofs.«139158_j28166395527551_2_alg».proof.Proof.RefFacts
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal.HostValue

/-! ## The two programs prepare the same index arrays, zero array and degree from the edge list -/

theorem src_eq (x1 : IVec Cert.KernelIdeal.S2x1600000 32) :
    Cert.ReferenceIdeal.Read.val_main_v32 (F := Ideal) x1 = srcIdx (edgeRow0 x1) := rfl
theorem dst_eq (x1 : IVec Cert.KernelIdeal.S2x1600000 32) :
    Cert.ReferenceIdeal.Read.val_main_v38 (F := Ideal) x1 = dstIdx (edgeRow1 x1) := rfl
theorem zero_eq : Cert.ReferenceIdeal.Read.val_main_v37 (F := Ideal) = zeros64 := rfl
theorem deg_eq (x1 : IVec Cert.KernelIdeal.S2x1600000 32) :
    Cert.ReferenceIdeal.Read.val_main_v10 (F := Ideal) x1 = degOf (edgeRow1 x1) := rfl
theorem dG_eq : Cert.ReferenceIdeal.gather_S100000x64_S1600000x1_S1600000x64_1_0_n_n_0_1_164
    = Cert.KernelIdeal.gather_S100000x64_S1600000x1_S1600000x64_1_0_n_n_0_1_164 := rfl
theorem dS_eq : Cert.ReferenceIdeal.scatter_S100000x64_S1600000x1_S1600000x64_1_0_0_1
    = Cert.KernelIdeal.scatter_S100000x64_S1600000x1_S1600000x64_1_0_0_1 := rfl

/-- The reference's value is the kernel program's value, as functions of the same eight arrays: the reference's
    stages are the edge-weighted network, which is the factored network, which is the kernel program's composed
    launches. -/
theorem value_eq (a0 : FVec Ideal Cert.KernelIdeal.S100000x128 .f32) (a1 : IVec Cert.KernelIdeal.S2x1600000 32)
    (a2 : FVec Ideal Cert.KernelIdeal.S128x64 .f32) (a3 : FVec Ideal Cert.KernelIdeal.S64 .f32)
    (a4 : FVec Ideal Cert.KernelIdeal.S64x64 .f32) (a5 : FVec Ideal Cert.KernelIdeal.S64 .f32)
    (a6 : FVec Ideal Cert.KernelIdeal.S64x1 .f32) (a7 : FVec Ideal Cert.KernelIdeal.S1 .f32) :
    Cert.ReferenceIdeal.Read.val_main_v100 (F := Ideal) a0 a1 a2 a3 a4 a5 a6 a7 = outOf a0 a1 a2 a3 a4 a5 a6 a7 := by
  rw [Cert.ReferenceIdeal.RefValue.ref_eq, Cert.ReferenceIdeal.RefFacts.refOut_eq_kerOut, outOf_eq,
    src_eq, dst_eq, zero_eq, deg_eq, dG_eq, dS_eq]

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the ideal values. -/
theorem preserves : Cert.preserves_Kernel_KernelIdeal := trivial

/-- Both programs run; the kernel program's result buffer ends at its composed value of the arguments, the
    reference's at its stages' value of arguments that agree: one function. -/
theorem algebraic : Cert.algebraic_KernelIdeal_ReferenceIdeal := by
  intro m ρ m' ρ' _ hagree
  refine ⟨fun c => outOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (W7_v39 m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v100_eq, h0, h1, h2, h3, h4, h5, h6, h7]
    exact value_eq _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
